-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S64x512 : Shape := ⟨2, ![64, 512]⟩
abbrev S1 : Shape := ⟨1, ![1]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S8x2048x512 .f32) (main_arg1 : FVec F S64x512 .f32) (main_arg2 : FVec F S64x512 .f32) (main_arg3 : FVec F S64x512 .f32) (main_arg4 : IVec S1 1) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Kernel.lean ====
abbrev S8x2048x512 : Shape := ⟨3, ![8, 2048, 512]⟩
abbrev S64x512 : Shape := ⟨2, ![64, 512]⟩
abbrev S1 : Shape := ⟨1, ![1]⟩
abbrev S8x2048x64 : Shape := ⟨3, ![8, 2048, 64]⟩
abbrev S8x2048x2048 : Shape := ⟨3, ![8, 2048, 2048]⟩
abbrev S1x2048x512 : Shape := ⟨3, ![1, 2048, 512]⟩
abbrev S1x2048x64 : Shape := ⟨3, ![1, 2048, 64]⟩
abbrev S1x2048x256 : Shape := ⟨3, ![1, 2048, 256]⟩
abbrev S2048x64 : Shape := ⟨2, ![2048, 64]⟩
abbrev S2048x512 : Shape := ⟨2, ![2048, 512]⟩
abbrev S512x64 : Shape := ⟨2, ![512, 64]⟩
abbrev S256x64 : Shape := ⟨2, ![256, 64]⟩
abbrev S64x256 : Shape := ⟨2, ![64, 256]⟩
abbrev S2048x256 : Shape := ⟨2, ![2048, 256]⟩
abbrev S256 : Shape := ⟨1, ![256]⟩
abbrev S1x256 : Shape := ⟨2, ![1, 256]⟩

abbrev nBuf : Space → Nat
  | .hbm => 7
  | .vmem => 13
  | .smem => 0
  | _ => 0

abbrev bufTy : (tb : Table) → Fin (tcTables nBuf tb) → BufTy
  | .hbm, ⟨0, _⟩ => ⟨S8x2048x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S1, .i1⟩
  | .hbm, ⟨5, _⟩ => ⟨S8x2048x64, .f32⟩
  | .hbm, ⟨6, _⟩ => ⟨S8x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x256, .f32⟩
  | .local _ .vmem, ⟨8, _⟩ => ⟨S1x2048x256, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : Index := Scalar.indexCast v3
  let c0 : Index := 0#32
  ![v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  transposes_S64x512_p1_0_S512x64 : S64x512.Transposes [1, 0] S512x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  h_S256x64 : 0 < S256x64.numel
  transposes_S256x64_p1_0_S64x256 : S256x64.Transposes [1, 0] S64x256
  iota_S2048x256_d0_w32 : S2048x256.Iotas .tc 32 [0]
  iota_S2048x256_d1_w32 : S2048x256.Iotas .tc 32 [1]
  reduces_S2048x256_S256 : S2048x256.Reduces [0] S256
  shapeCasts_S256_S1x256 : S256.ShapeCasts S1x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S2048x512_S512x64_S2048x64_1_0_0_1_n_n_wf : DotDims.WF S2048x512 S512x64 S2048x64 [1] [0] [0] [1] [] []
  dot_S2048x64_S64x256_S2048x256_1_0_0_1_n_n_wf : DotDims.WF S2048x64 S64x256 S2048x256 [1] [0] [0] [1] [] []
  dot_S2048x256_S256x64_S2048x64_1_0_0_1_n_n_wf : DotDims.WF S2048x256 S256x64 S2048x64 [1] [0] [0] [1] [] []
  hrank0 : 0 < grid0.rank
  k0_off1_inb : ∀ i : grid0.Coords, ∀ a, (k0_off1 i) a + S256x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S8x2048x64.size a
  hwx0_4 : ∀ i : grid0.Coords, EltTy.bits .f32 = 32 ∨ (Rect.block (s := S8x2048x64) S1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S8x2048x2048.size a
  hwx0_5 : ∀ i : grid0.Coords, EltTy.bits .f32 = 32 ∨ (Rect.block (s := S8x2048x2048) S1x2048x256.size (cc0_transform_5 i) (hinb0_5 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S64x512 : Shape := ⟨2, ![64, 512]⟩
abbrev S1 : Shape := ⟨1, ![1]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x1x2048 : Shape := ⟨3, ![8, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S1, .i1⟩
  | .hbm, ⟨5, _⟩ => ⟨S8x2048x64, .f32⟩
  | .hbm, ⟨6, _⟩ => ⟨S8x2048x64, .f32⟩
  | .hbm, ⟨7, _⟩ => ⟨S8x2048x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .i1⟩
  | .hbm, ⟨13, _⟩ => ⟨S2048x2048, .i1⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .i1⟩
  | .hbm, ⟨21, _⟩ => ⟨S2048x2048, .i1⟩
  | .hbm, ⟨22, _⟩ => ⟨S2048x2048, .i1⟩
  | .hbm, ⟨23, _⟩ => ⟨S1x2048x2048, .i1⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x1x2048, .f32⟩
  | .hbm, ⟨41, _⟩ => ⟨S8x2048x2048, .f32⟩
  | .hbm, ⟨42, _⟩ => ⟨S8x2048x2048, .f32⟩
  | .hbm, ⟨43, _⟩ => ⟨S8x2048x64, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x512_S64x512_S8x2048x64_2_1_01_0_n_n_wf : DotDims.WF S8x2048x512 S64x512 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x512_S64x512_S8x2048x64_2_1_01_0_n_n : DotDims S8x2048x512 S64x512 S8x2048x64 where
  lhsContracting := [2]
  rhsContracting := [1]
  lhsNonContracting := [0, 1]
  rhsNonContracting := [0]
  lhsBatch := []
  rhsBatch := []
  wf := dot_S8x2048x512_S64x512_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Blocks.lean ====
import proofs.«140624_j29308856828594_1_alg».proof.Proof.Gen.KernelIdeal.Value
import Idealize.ShloMosaic.Lib.Pipeline.Value
import Idealize.ShloMosaic.Lib.ValueIdx

/-!
# The grid and the windows' blocks

The grid has 64 points, point `t` being batch `t / 8`, key tile `t % 8`. `x`'s window shows the batch's
`[1, 2048, 512]` slab, the three weight windows the whole arrays at every point; the output's window shows the batch's
`[1, 2048, 64]` slab (written back after the batch's last tile only) and the weights' window the batch's
`[1, 2048, 256]` column tile (written back at every point). Here: those index maps decided once over the grid, the
input blocks read at an index, and which array indices each output block holds.
-/

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

theorem hN : cfg0.N = 64 := N_0

/-- The batch of grid point `t`. -/
def bOf (t : Fin cfg0.N) : Fin 8 := ⟨t.val / 8, by have := t.isLt; have := hN; omega⟩
/-- The key tile of grid point `t`. -/
def ctOf (t : Fin cfg0.N) : Fin 8 := ⟨t.val % 8, Nat.mod_lt _ (by decide)⟩

/-- The printed index maps and the grid's coordinates, decided over the 64 points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = t.val % 8
    ∧ (grid0.coords t 0).val = t.val / 8 ∧ (grid0.coords t 1).val = t.val % 8 :=
  (by decide +kernel : ∀ t : Fin grid0.N, _)

theorem coords1 (t : Fin cfg0.N) : (grid0.coords t 1 : Fin 8) = ctOf t :=
  Fin.ext (idx_facts t).2.2.2.2.2.2.2.2.2.2.2.2.2.2.2.2

/-- `x`'s block at point `t` is the batch's slab of `x`. -/
theorem xblk (c : Dev nD) (t : Fin cfg0.N) (r : Fin 2048) (cc : Fin 512) :
    (iblk m c 0 t : Vec F S1x2048x512 .f32) (ix3 0 r cc) = V m c main_arg0 (ix3 (bOf t) r cc) := by
  unfold iblk
  rw [View.read_apply]
  show V m c main_arg0 _ = V m c main_arg0 _
  congr 1
  funext a
  apply Fin.ext
  obtain ⟨e0, e1, e2, -⟩ := idx_facts t
  match a with
  | ⟨0, _⟩ => show win0_0.index t (0 : Fin 3) * 1 + 1 * 0 = t.val / 8; rw [e0]; omega
  | ⟨1, _⟩ => show win0_0.index t (1 : Fin 3) * 2048 + 1 * r.val = r.val; rw [e1]; omega
  | ⟨2, _⟩ => show win0_0.index t (2 : Fin 3) * 512 + 1 * cc.val = cc.val; rw [e2]; omega

/-- The keys' weights are shown whole at every point; -/
theorem wblk1 (c : Dev nD) (t : Fin cfg0.N) (hh : Fin 64) (cc : Fin 512) :
    (iblk m c 1 t : Vec F S64x512 .f32) (ix2 hh cc) = V m c main_arg1 (ix2 hh cc) := by
  unfold iblk
  rw [View.read_apply]
  show V m c main_arg1 _ = V m c main_arg1 _
  congr 1
  funext a
  apply Fin.ext
  obtain ⟨-, -, -, e0, e1, -⟩ := idx_facts t
  match a with
  | ⟨0, _⟩ => show win0_1.index t (0 : Fin 2) * 64 + 1 * hh.val = hh.val; rw [e0]; omega
  | ⟨1, _⟩ => show win0_1.index t (1 : Fin 2) * 512 + 1 * cc.val = cc.val; rw [e1]; omega

/-- the queries' weights likewise; -/
theorem wblk2 (c : Dev nD) (t : Fin cfg0.N) (hh : Fin 64) (cc : Fin 512) :
    (iblk m c 2 t : Vec F S64x512 .f32) (ix2 hh cc) = V m c main_arg2 (ix2 hh cc) := by
  unfold iblk
  rw [View.read_apply]
  show V m c main_arg2 _ = V m c main_arg2 _
  congr 1
  funext a
  apply Fin.ext
  obtain ⟨-, -, -, -, -, e0, e1, -⟩ := idx_facts t
  match a with
  | ⟨0, _⟩ => show win0_2.index t (0 : Fin 2) * 64 + 1 * hh.val = hh.val; rw [e0]; omega
  | ⟨1, _⟩ => show win0_2.index t (1 : Fin 2) * 512 + 1 * cc.val = cc.val; rw [e1]; omega

/-- and the values' weights. -/
theorem wblk3 (c : Dev nD) (t : Fin cfg0.N) (hh : Fin 64) (cc : Fin 512) :
    (iblk m c 3 t : Vec F S64x512 .f32) (ix2 hh cc) = V m c main_arg3 (ix2 hh cc) := by
  unfold iblk
  rw [View.read_apply]
  show V m c main_arg3 _ = V m c main_arg3 _
  congr 1
  funext a
  apply Fin.ext
  obtain ⟨-, -, -, -, -, -, -, e0, e1, -⟩ := idx_facts t
  match a with
  | ⟨0, _⟩ => show win0_3.index t (0 : Fin 2) * 64 + 1 * hh.val = hh.val; rw [e0]; omega
  | ⟨1, _⟩ => show win0_3.index t (1 : Fin 2) * 512 + 1 * cc.val = cc.val; rw [e1]; omega

/-- An index of the weights' array lies in point `t`'s block iff each coordinate is in the block's range. -/
theorem mem_blk5 (t : Fin cfg0.N) (i : S8x2048x2048.Idx) :
    i ∈ ((cfg0.win 5).blk t).view.set ↔ ∀ a : Fin 3, win0_5.index t a * S1x2048x256.size a ≤ (i a).val ∧ (i a).val < win0_5.index t a * S1x2048x256.size a + S1x2048x256.size a := by
  show i ∈ ((View.whole main_v0_1).slice (win0_5.rect t)).set ↔ _
  rw [View.set_slice_whole, Rect.mem_set_unit]
  exact Iff.rfl

/-- An index of the output array lies in point `t`'s block iff each coordinate is in the block's range. -/
theorem mem_blk4 (t : Fin cfg0.N) (i : S8x2048x64.Idx) :
    i ∈ ((cfg0.win 4).blk t).view.set ↔ ∀ a : Fin 3, win0_4.index t a * S1x2048x64.size a ≤ (i a).val ∧ (i a).val < win0_4.index t a * S1x2048x64.size a + S1x2048x64.size a := by
  show i ∈ ((View.whole main_v0_0).slice (win0_4.rect t)).set ↔ _
  rw [View.set_slice_whole, Rect.mem_set_unit]
  exact Iff.rfl

/-- Every entry `(b, r, j)` of the weights' array is in the block of the point of batch `b`, key tile `j / 256`, which writes back. -/
theorem cover5 (i : S8x2048x2048.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 2048 := (i 2).isLt
  refine ⟨⟨8 * (i 0).val + (i 2).val / 256, by rw [hN]; omega⟩, flush0_5 _, ?_⟩
  rw [mem_blk5]
  obtain ⟨-, -, -, -, -, -, -, -, -, -, -, -, e0, e1, e2, -⟩ := idx_facts ⟨8 * (i 0).val + (i 2).val / 256, by rw [hN]; omega⟩
  intro a
  match a with
  | ⟨0, _⟩ => show win0_5.index _ (0 : Fin 3) * 1 ≤ (i 0).val ∧ (i 0).val < win0_5.index _ (0 : Fin 3) * 1 + 1; rw [e0]; dsimp only; omega
  | ⟨1, _⟩ => show win0_5.index _ (1 : Fin 3) * 2048 ≤ (i 1).val ∧ (i 1).val < win0_5.index _ (1 : Fin 3) * 2048 + 2048; rw [e1]; omega
  | ⟨2, _⟩ => show win0_5.index _ (2 : Fin 3) * 256 ≤ (i 2).val ∧ (i 2).val < win0_5.index _ (2 : Fin 3) * 256 + 256; rw [e2]; dsimp only; omega

/-- Every entry `(b, r, h)` of the output array is in the block of batch `b`'s last point, the one that writes back. -/
theorem cover4 (i : S8x2048x64.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 64 := (i 2).isLt
  refine ⟨⟨8 * (i 0).val + 7, by rw [hN]; omega⟩, (flush0_4 _).mpr (by dsimp only; omega), ?_⟩
  rw [mem_blk4]
  obtain ⟨-, -, -, -, -, -, -, -, -, e0, e1, e2, -⟩ := idx_facts ⟨8 * (i 0).val + 7, by rw [hN]; omega⟩
  intro a
  match a with
  | ⟨0, _⟩ => show win0_4.index _ (0 : Fin 3) * 1 ≤ (i 0).val ∧ (i 0).val < win0_4.index _ (0 : Fin 3) * 1 + 1; rw [e0]; dsimp only; omega
  | ⟨1, _⟩ => show win0_4.index _ (1 : Fin 3) * 2048 ≤ (i 1).val ∧ (i 1).val < win0_4.index _ (1 : Fin 3) * 2048 + 2048; rw [e1]; omega
  | ⟨2, _⟩ => show win0_4.index _ (2 : Fin 3) * 64 ≤ (i 2).val ∧ (i 2).val < win0_4.index _ (2 : Fin 3) * 64 + 64; rw [e2]; omega

end Cert.KernelIdeal.Blocks

end
-- ==== Proof.Pieces.lean ====
import proofs.«140624_j29308856828594_1_alg».proof.Proof.Gen.KernelIdeal.Frame
import Idealize.ShloMosaic.Lib.Pipeline.Value
import Idealize.ShloMosaic.Lib.Tactic

/-!
# What one grid point leaves behind, as values

The body keeps four `[2048, 64]` tables between the points of one batch: the keys `k`, the queries `q`, the values `v`
and the output's running sum. At the first key tile of a batch it computes `k`, `q`, `v` from `x`'s block and the three
weight arrays and zeroes the sum; at every tile it takes the tile's 256 rows of `k` and `v`, forms the tile of attention
weights from them and `q`, stores that tile, adds the tile's contribution to the sum and copies the sum out. Here each
buffer's contents after the body are read back as the body's pure terms of what it loaded, in both cases.
-/

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 rows of a `[2048, 64]` table that belong to the key tile of grid point `i`: rows `256·(i 1)` onwards. -/
def tile (i : grid0.Coords) (P : Vec F S2048x64 .f32) : Vec F S256x64 .f32 :=
  View.ld P (Rect.unit (s := S2048x64) (k0_off1 i) S256x64.size (k0_off1_inb i))

/-- What a tile adds to the running sum `acc`, given the tables `k`, `q`, `v`. -/
def step (i : grid0.Coords) (k q v acc : Vec F S2048x64 .f32) : Vec F S2048x64 .f32 :=
  k0_pay1 acc (k0_pay10 i (tile i k) (tile i v) q)

/-- The tile of attention weights, given the tables `k` and `q`. -/
def weights (i : grid0.Coords) (k q : Vec F S2048x64 .f32) : Vec F S1x2048x256 .f32 :=
  k0_pay9 i (tile i k) q

/-- At a batch's first key tile the keys' table ends as the projection payload of `x`'s block and the keys' weights. -/
theorem kA (c : Dev nD) (i : grid0.Coords) (arg2 : Memref sig .tc .vmem S1x2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2048x64 .f32) (harg6 : arg6.IsWhole) (arg7 : Memref sig .tc .vmem S1x2048x256 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x64 .f32) (harg11 : arg11.IsWhole) (hc0 : cond0_0 i)
    (x0 : Vec F S1x2048x512 .f32) (x1 : Vec F S64x512 .f32) (x2 : Vec F S64x512 .f32) (x3 : Vec F S64x512 .f32) :
    sout0_A_0 c i arg2 harg2 arg3 harg3 arg4 harg4 arg5 harg5 arg6 harg6 arg7 harg7 arg8 harg8 arg9 harg9 arg10 harg10 arg11 harg11 hc0 x0 x1 x2 x3 = k0_pay4 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_run_names
  simp only [View.readAt_writes_junk_eq_canon, View.canon_unit_zero (S := S2048x64) hz2, View.canon_cons_unit_zero (S := S2048x64) hz2, View.canon_unit_zero (S := S1x2048x64) hz3, View.canon_unit_zero (S := S1x2048x256) hz3, View.readCov_unit_zero (S := S2048x64) _ hz2, View.readCov_cons_toLoadRect]
  simp only [View.readAt_eq_ld, harg2.read_unread, harg3.read_unread, harg4.read_unread, harg5.read_unread, View.ld_unit_zero (S := S1x2048x512) hz3, View.ld_unit_zero (S := S64x512) hz2]

/-- … the queries' table likewise, from the queries' weights; -/
theorem qA (c : Dev nD) (i : grid0.Coords) (arg2 : Memref sig .tc .vmem S1x2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2048x64 .f32) (harg6 : arg6.IsWhole) (arg7 : Memref sig .tc .vmem S1x2048x256 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x64 .f32) (harg11 : arg11.IsWhole) (hc0 : cond0_0 i)
    (x0 : Vec F S1x2048x512 .f32) (x1 : Vec F S64x512 .f32) (x2 : Vec F S64x512 .f32) (x3 : Vec F S64x512 .f32) :
    sout0_A_1 c i arg2 harg2 arg3 harg3 arg4 harg4 arg5 harg5 arg6 harg6 arg7 harg7 arg8 harg8 arg9 harg9 arg10 harg10 arg11 harg11 hc0 x0 x1 x2 x3 = k0_pay5 x0 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_run_names
  simp only [View.readAt_writes_junk_eq_canon, View.canon_unit_zero (S := S2048x64) hz2, View.canon_cons_unit_zero (S := S2048x64) hz2, View.canon_unit_zero (S := S1x2048x64) hz3, View.canon_unit_zero (S := S1x2048x256) hz3, View.readCov_unit_zero (S := S2048x64) _ hz2, View.readCov_cons_toLoadRect]
  simp only [View.readAt_eq_ld, harg2.read_unread, harg3.read_unread, harg4.read_unread, harg5.read_unread, View.ld_unit_zero (S := S1x2048x512) hz3, View.ld_unit_zero (S := S64x512) hz2]

/-- … and the values' table from the values' weights. -/
theorem vA (c : Dev nD) (i : grid0.Coords) (arg2 : Memref sig .tc .vmem S1x2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2048x64 .f32) (harg6 : arg6.IsWhole) (arg7 : Memref sig .tc .vmem S1x2048x256 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x64 .f32) (harg11 : arg11.IsWhole) (hc0 : cond0_0 i)
    (x0 : Vec F S1x2048x512 .f32) (x1 : Vec F S64x512 .f32) (x2 : Vec F S64x512 .f32) (x3 : Vec F S64x512 .f32) :
    sout0_A_2 c i arg2 harg2 arg3 harg3 arg4 harg4 arg5 harg5 arg6 harg6 arg7 harg7 arg8 harg8 arg9 harg9 arg10 harg10 arg11 harg11 hc0 x0 x1 x2 x3 = k0_pay6 x0 x3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_run_names
  simp only [View.readAt_writes_junk_eq_canon, View.canon_unit_zero (S := S2048x64) hz2, View.canon_cons_unit_zero (S := S2048x64) hz2, View.canon_unit_zero (S := S1x2048x64) hz3, View.canon_unit_zero (S := S1x2048x256) hz3, View.readCov_unit_zero (S := S2048x64) _ hz2, View.readCov_cons_toLoadRect]
  simp only [View.readAt_eq_ld, harg2.read_unread, harg3.read_unread, harg4.read_unread, harg5.read_unread, View.ld_unit_zero (S := S1x2048x512) hz3, View.ld_unit_zero (S := S64x512) hz2]

/-- At a batch's first key tile the running sum ends as the first tile's contribution added to the zero table. -/
theorem accA (c : Dev nD) (i : grid0.Coords) (arg2 : Memref sig .tc .vmem S1x2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2048x64 .f32) (harg6 : arg6.IsWhole) (arg7 : Memref sig .tc .vmem S1x2048x256 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x64 .f32) (harg11 : arg11.IsWhole) (hc0 : cond0_0 i)
    (x0 : Vec F S1x2048x512 .f32) (x1 : Vec F S64x512 .f32) (x2 : Vec F S64x512 .f32) (x3 : Vec F S64x512 .f32) :
    sout0_A_3 c i arg2 harg2 arg3 harg3 arg4 harg4 arg5 harg5 arg6 harg6 arg7 harg7 arg8 harg8 arg9 harg9 arg10 harg10 arg11 harg11 hc0 x0 x1 x2 x3 = step i (k0_pay4 x0 x1) (k0_pay5 x0 x2) (k0_pay6 x0 x3) k0_pay7 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_run_names
  simp only [View.readAt_writes_junk_eq_canon, View.canon_unit_zero (S := S2048x64) hz2, View.canon_cons_unit_zero (S := S2048x64) hz2, View.canon_unit_zero (S := S1x2048x64) hz3, View.canon_unit_zero (S := S1x2048x256) hz3, View.readCov_unit_zero (S := S2048x64) _ hz2, View.readCov_cons_toLoadRect]
  simp only [View.readAt_eq_ld, harg2.read_unread, harg3.read_unread, harg4.read_unread, harg5.read_unread, View.ld_unit_zero (S := S1x2048x512) hz3, View.ld_unit_zero (S := S64x512) hz2]
  rfl

/-- At a batch's first key tile the stored tile of weights is formed from the freshly computed keys and queries. -/
theorem wA (c : Dev nD) (i : grid0.Coords) (arg2 : Memref sig .tc .vmem S1x2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2048x64 .f32) (harg6 : arg6.IsWhole) (arg7 : Memref sig .tc .vmem S1x2048x256 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x64 .f32) (harg11 : arg11.IsWhole) (hc0 : cond0_0 i)
    (x0 : Vec F S1x2048x512 .f32) (x1 : Vec F S64x512 .f32) (x2 : Vec F S64x512 .f32) (x3 : Vec F S64x512 .f32) :
    out0_A_5 c i arg2 harg2 arg3 harg3 arg4 harg4 arg5 harg5 arg6 harg6 arg7 harg7 arg8 harg8 arg9 harg9 arg10 harg10 arg11 harg11 hc0 x0 x1 x2 x3 = weights i (k0_pay4 x0 x1) (k0_pay5 x0 x2) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_run_names
  simp only [View.readAt_writes_junk_eq_canon, View.canon_unit_zero (S := S2048x64) hz2, View.canon_cons_unit_zero (S := S2048x64) hz2, View.canon_unit_zero (S := S1x2048x64) hz3, View.canon_unit_zero (S := S1x2048x256) hz3, View.readCov_unit_zero (S := S2048x64) _ hz2, View.readCov_cons_toLoadRect]
  simp only [View.readAt_eq_ld, harg2.read_unread, harg3.read_unread, harg4.read_unread, harg5.read_unread, View.ld_unit_zero (S := S1x2048x512) hz3, View.ld_unit_zero (S := S64x512) hz2]
  rfl

/-- At a batch's first key tile the output's block is a copy of the running sum just formed. -/
theorem oA (c : Dev nD) (i : grid0.Coords) (arg2 : Memref sig .tc .vmem S1x2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2048x64 .f32) (harg6 : arg6.IsWhole) (arg7 : Memref sig .tc .vmem S1x2048x256 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x64 .f32) (harg11 : arg11.IsWhole) (hc0 : cond0_0 i)
    (x0 : Vec F S1x2048x512 .f32) (x1 : Vec F S64x512 .f32) (x2 : Vec F S64x512 .f32) (x3 : Vec F S64x512 .f32) :
    out0_A_4 c i arg2 harg2 arg3 harg3 arg4 harg4 arg5 harg5 arg6 harg6 arg7 harg7 arg8 harg8 arg9 harg9 arg10 harg10 arg11 harg11 hc0 x0 x1 x2 x3 = k0_pay2 (step i (k0_pay4 x0 x1) (k0_pay5 x0 x2) (k0_pay6 x0 x3) k0_pay7) := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_run_names
  simp only [View.readAt_writes_junk_eq_canon, View.canon_unit_zero (S := S2048x64) hz2, View.canon_cons_unit_zero (S := S2048x64) hz2, View.canon_unit_zero (S := S1x2048x64) hz3, View.canon_unit_zero (S := S1x2048x256) hz3, View.readCov_unit_zero (S := S2048x64) _ hz2, View.readCov_cons_toLoadRect]
  simp only [View.readAt_eq_ld, harg2.read_unread, harg3.read_unread, harg4.read_unread, harg5.read_unread, View.ld_unit_zero (S := S1x2048x512) hz3, View.ld_unit_zero (S := S64x512) hz2]
  rfl

/-- At a later key tile the running sum ends as this tile's contribution added to what the tile before left, formed from the tables the tile before left. -/
theorem accB (c : Dev nD) (i : grid0.Coords) (arg2 : Memref sig .tc .vmem S1x2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2048x64 .f32) (harg6 : arg6.IsWhole) (arg7 : Memref sig .tc .vmem S1x2048x256 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x64 .f32) (harg11 : arg11.IsWhole) (hc0 : ¬cond0_0 i)
    (x0 : Vec F S1x2048x512 .f32) (x1 : Vec F S64x512 .f32) (x2 : Vec F S64x512 .f32) (x3 : Vec F S64x512 .f32)
    (xs0 xs1 xs2 xs3 : Vec F S2048x64 .f32) :
    sout0_B_3 c i arg2 harg2 arg3 harg3 arg4 harg4 arg5 harg5 arg6 harg6 arg7 harg7 arg8 harg8 arg9 harg9 arg10 harg10 arg11 harg11 hc0 x0 x1 x2 x3 xs0 xs1 xs2 xs3 = step i xs0 xs1 xs2 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 x0 x1 x2 x3 xs0 xs1 xs2 xs3)]
  unfold kernelRun0_B
  dsimp only
  sl_unfold_run_names
  simp only [View.readAt_writes_junk_eq_canon, View.canon_unit_zero (S := S2048x64) hz2, View.canon_cons_unit_zero (S := S2048x64) hz2, View.canon_unit_zero (S := S1x2048x64) hz3, View.canon_unit_zero (S := S1x2048x256) hz3, View.readCov_unit_zero (S := S2048x64) _ hz2, View.readCov_cons_toLoadRect]
  simp only [View.readAt_eq_ld, harg8.read_unread, harg9.read_unread, harg10.read_unread, harg11.read_unread, View.ld_unit_zero (S := S2048x64) hz2]
  rfl

/-- At a later key tile the stored tile of weights is formed from the keys and queries the tile before left. -/
theorem wB (c : Dev nD) (i : grid0.Coords) (arg2 : Memref sig .tc .vmem S1x2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2048x64 .f32) (harg6 : arg6.IsWhole) (arg7 : Memref sig .tc .vmem S1x2048x256 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x64 .f32) (harg11 : arg11.IsWhole) (hc0 : ¬cond0_0 i)
    (x0 : Vec F S1x2048x512 .f32) (x1 : Vec F S64x512 .f32) (x2 : Vec F S64x512 .f32) (x3 : Vec F S64x512 .f32)
    (xs0 xs1 xs2 xs3 : Vec F S2048x64 .f32) :
    out0_B_5 c i arg2 harg2 arg3 harg3 arg4 harg4 arg5 harg5 arg6 harg6 arg7 harg7 arg8 harg8 arg9 harg9 arg10 harg10 arg11 harg11 hc0 x0 x1 x2 x3 xs0 xs1 xs2 xs3 = weights i xs0 xs1 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 x0 x1 x2 x3 xs0 xs1 xs2 xs3)]
  unfold kernelRun0_B
  dsimp only
  sl_unfold_run_names
  simp only [View.readAt_writes_junk_eq_canon, View.canon_unit_zero (S := S2048x64) hz2, View.canon_cons_unit_zero (S := S2048x64) hz2, View.canon_unit_zero (S := S1x2048x64) hz3, View.canon_unit_zero (S := S1x2048x256) hz3, View.readCov_unit_zero (S := S2048x64) _ hz2, View.readCov_cons_toLoadRect]
  simp only [View.readAt_eq_ld, harg8.read_unread, harg9.read_unread, harg10.read_unread, harg11.read_unread, View.ld_unit_zero (S := S2048x64) hz2]
  rfl

/-- At a later key tile the output's block is a copy of the running sum just formed. -/
theorem oB (c : Dev nD) (i : grid0.Coords) (arg2 : Memref sig .tc .vmem S1x2048x512 .f32) (harg2 : arg2.IsWhole) (arg3 : Memref sig .tc .vmem S64x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x2048x64 .f32) (harg6 : arg6.IsWhole) (arg7 : Memref sig .tc .vmem S1x2048x256 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x64 .f32) (harg11 : arg11.IsWhole) (hc0 : ¬cond0_0 i)
    (x0 : Vec F S1x2048x512 .f32) (x1 : Vec F S64x512 .f32) (x2 : Vec F S64x512 .f32) (x3 : Vec F S64x512 .f32)
    (xs0 xs1 xs2 xs3 : Vec F S2048x64 .f32) :
    out0_B_4 c i arg2 harg2 arg3 harg3 arg4 harg4 arg5 harg5 arg6 harg6 arg7 harg7 arg8 harg8 arg9 harg9 arg10 harg10 arg11 harg11 hc0 x0 x1 x2 x3 xs0 xs1 xs2 xs3 = k0_pay2 (step i xs0 xs1 xs2 xs3) := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 hc0 x0 x1 x2 x3 xs0 xs1 xs2 xs3)]
  unfold kernelRun0_B
  dsimp only
  sl_unfold_run_names
  simp only [View.readAt_writes_junk_eq_canon, View.canon_unit_zero (S := S2048x64) hz2, View.canon_cons_unit_zero (S := S2048x64) hz2, View.canon_unit_zero (S := S1x2048x64) hz3, View.canon_unit_zero (S := S1x2048x256) hz3, View.readCov_unit_zero (S := S2048x64) _ hz2, View.readCov_cons_toLoadRect]
  simp only [View.readAt_eq_ld, harg8.read_unread, harg9.read_unread, harg10.read_unread, harg11.read_unread, View.ld_unit_zero (S := S2048x64) hz2]
  rfl

end Cert.KernelIdeal.Pieces

end
-- ==== Proof.Spec.lean ====
import Idealize.ShloMosaic.PureOps.Ideal
import Idealize.ShloMosaic.Lib.ValueIdx

/-!
# The attention head, as functions of the argument arrays

One head of causal attention whose softmax runs down the QUERY axis: for a batch `b`, keys `k = x·Wkᵀ`,
queries `q = x·Wqᵀ`, values `v = x·Wvᵀ` (each `[2048, 64]`), the score of query `i` against key `j` is
`(∑ₕ q[i,h]·k[j,h])·scale` where `j ≤ i` and `-∞` elsewhere; column `j` of the scores is normalised by the
softmax over `i` (its maximum subtracted first), giving the weights `attn[b,i,j]`; the output is
`out[b,i,h] = ∑ⱼ attn[b,i,j]·v[j,h]`. Everything is an extended real; the two literal words (the scale and `-∞`)
are kept as words and never evaluated.
-/

noncomputable section

namespace Cert.Attn

open Idealize.ShloMosaic Idealize.ShloMosaic.ValueIdx

/-- The factor on the scores: the `f32` word both programs print for `512^(-1/2)`. -/
def scale : EReal := Ideal.ofBits .f32 0x3D3504F3#32

/-- The filler of the masked scores: the `f32` word of `-∞`. -/
def ninf : EReal := Ideal.ofBits .f32 0xFF800000#32

/-- The softmax of a column `s` of `n` scores, at row `i`: `exp (s i - M) / ∑ᵢ' exp (s i' - M)` with `M` the
    column's maximum taken from `-∞`. -/
def colSoftmax {n : Nat} (s : Fin n → EReal) (i : Fin n) : EReal :=
  Ideal.div (Ideal.exp (s i - (Finset.univ : Finset (Fin n)).fold max ninf s))
    (∑ i' : Fin n, Ideal.exp (s i' - (Finset.univ : Finset (Fin n)).fold max ninf s))

/-- The shape of `x`: batch × position × model width. -/
abbrev SX : Shape := ⟨3, ![8, 2048, 512]⟩
/-- The shape of a projection's weights: head width × model width. -/
abbrev SW : Shape := ⟨2, ![64, 512]⟩

/-- A projection `x·Wᵀ` at batch `b`, position `t`, head coordinate `h`: `∑_c x[b,t,c]·W[h,c]`. -/
def proj (x : SX.Idx → EReal) (w : SW.Idx → EReal) (b : Fin 8) (t : Fin 2048) (h : Fin 64) : EReal :=
  ∑ c : Fin 512, x (ix3 b t c) * w (ix2 h c)

/-- Column `j` of the masked scores of batch `b`, as a function of the query `i`: the scaled inner product of
    query `i` with key `j` where `j ≤ i`, `-∞` above the diagonal. -/
def masked (x : SX.Idx → EReal) (wk wq : SW.Idx → EReal) (b : Fin 8) (j i : Fin 2048) : EReal :=
  if j.val ≤ i.val then (∑ h : Fin 64, proj x wq b i h * proj x wk b j h) * scale else ninf

/-- The attention weights: the softmax down column `j`, read at query `i`. -/
def attn (x : SX.Idx → EReal) (wk wq : SW.Idx → EReal) (b : Fin 8) (i j : Fin 2048) : EReal :=
  colSoftmax (masked x wk wq b j) i

/-- The head's output: the weights against the values, summed over the keys. -/
def out (x : SX.Idx → EReal) (wk wq wv : SW.Idx → EReal) (b : Fin 8) (i : Fin 2048) (h : Fin 64) : EReal :=
  ∑ j : Fin 2048, attn x wk wq b i j * proj x wv b j h

end Cert.Attn

end
-- ==== Proof.Payload.lean ====
import proofs.«140624_j29308856828594_1_alg».proof.Proof.Gen.KernelIdeal.Skeleton
import proofs.«140624_j29308856828594_1_alg».proof.Proof.Spec
import Idealize.ShloMosaic.PureOps.Ideal.Laws
import Idealize.ShloMosaic.Lib.ValueIdx
import Idealize.ShloMosaic.Lib.Pipeline.Value
import Idealize.ShloMosaic.Lib.ValueLayout

/-!
# The kernel body's values, read at an index

Each value the kernel body stores is a pure term over the vectors it loaded. Read at the extended reals, where a
change of float format is the identity and a matrix product into a zero accumulator is the plain sum of products,
every such term has a closed formula at each index: the three projections are sums over the model width, the
attention tile is the column softmax of the masked, scaled scores, and the tile's contribution to the output is
the sum of the weights against the tile's values.
-/

set_option synthInstance.maxSize 4096

noncomputable section

namespace Cert.KPay

open Cert.KernelIdeal Cert.KernelIdeal.Gen Idealize.ShloMosaic Idealize.ShloMosaic.ValueIdx Cert.Attn

/-! ## The accumulation, the copy out, the zeroed accumulator -/

/-- The accumulator's update adds the tile's contribution to what was there: the cast to the same shape changes nothing. -/
theorem pay1_apply (v34 : Vec Ideal S2048x64 .f32) (v37 : FVec Ideal S2048x64 .f32) (r : Fin 2048) (h : Fin 64) :
    k0_pay1 (F := Ideal) v34 v37 (ix2 r h) = v34 (ix2 r h) + v37 (ix2 r h) := by
  unfold k0_pay1
  rw [shapeCast_self]
  rfl

/-- The copy out views the `[2048, 64]` accumulator as a `[1, 2048, 64]` block: the same entries behind a unit axis. -/
theorem pay2_apply (v42 : Vec Ideal S2048x64 .f32) (r : Fin 2048) (h : Fin 64) :
    k0_pay2 (F := Ideal) v42 (ix3 0 r h) = v42 (ix2 r h) := by
  unfold k0_pay2
  exact shapeCast_ab_1ab_apply v42 _ 0 r h

/-- The accumulator starts from the zero word everywhere, and the zero word is the real `0`. -/
theorem pay7_apply (r : Fin 2048) (h : Fin 64) : k0_pay7 (F := Ideal) (ix2 r h) = 0 := by
  unfold k0_pay7
  rw [shapeCast_self]
  exact Ideal.ofBits_zero_f32

/-! ## A plain matrix product into zeros -/

section Plain
variable (M K N : Nat)

/-- In a plain `M×K` by `K×N` product the left operand's row is the output's row … -/
theorem plain_lhs0 (j : (⟨2, ![M, N]⟩ : Shape).Idx) (q : (DotDims.plain M K N).contr.Idx) :
    ((DotDims.plain M K N).lhsIdx j q 0).val = (j 0).val := rfl
/-- … its column the contraction position … -/
theorem plain_lhs1 (j : (⟨2, ![M, N]⟩ : Shape).Idx) (q : (DotDims.plain M K N).contr.Idx) :
    ((DotDims.plain M K N).lhsIdx j q 1).val = (q ⟨0, Nat.one_pos⟩).val := rfl
/-- … the right operand's row the contraction position … -/
theorem plain_rhs0 (j : (⟨2, ![M, N]⟩ : Shape).Idx) (q : (DotDims.plain M K N).contr.Idx) :
    ((DotDims.plain M K N).rhsIdx j q 0).val = (q ⟨0, Nat.one_pos⟩).val := rfl
/-- … and its column the output's column. -/
theorem plain_rhs1 (j : (⟨2, ![M, N]⟩ : Shape).Idx) (q : (DotDims.plain M K N).contr.Idx) :
    ((DotDims.plain M K N).rhsIdx j q 1).val = (j 1).val := rfl

end Plain

/-- At the extended reals a plain matrix product into the zero accumulator is, at `(t, h)`, the sum over the
    contracted coordinate of the products of the operands' entries. -/
theorem plain_matmul_zero_apply {M K N : Nat} {φ₁ φ₂ : FTy} (lhs : FVec Ideal ⟨2, ![M, K]⟩ φ₁) (rhs : FVec Ideal ⟨2, ![K, N]⟩ φ₂)
    (t : Fin M) (h : Fin N) :
    FloatOps.matmul (DotDims.plain M K N) none lhs rhs (constant (F := Ideal) ⟨2, ![M, N]⟩ .f32 0x00000000#32) (ix2 t h)
      = ∑ c : Fin K, lhs (ix2 t c) * rhs (ix2 c h) := by
  rw [Ideal.matmul_constant_zero_apply, ← Equiv.sum_comp (contrEquiv1 (DotDims.plain M K N) K rfl rfl).symm]
  refine Finset.sum_congr rfl fun c _ => ?_
  have hc := contrEquiv1_symm_val (DotDims.plain M K N) K rfl rfl c
  have el : (DotDims.plain M K N).lhsIdx (ix2 t h) ((contrEquiv1 (DotDims.plain M K N) K rfl rfl).symm c) = ix2 t c :=
    funext fun a => Fin.ext (by
      match a with
      | ⟨0, _⟩ => exact plain_lhs0 M K N _ _
      | ⟨1, _⟩ => exact (plain_lhs1 M K N _ _).trans hc)
  have er : (DotDims.plain M K N).rhsIdx (ix2 t h) ((contrEquiv1 (DotDims.plain M K N) K rfl rfl).symm c) = ix2 c h :=
    funext fun a => Fin.ext (by
      match a with
      | ⟨0, _⟩ => exact (plain_rhs0 M K N _ _).trans hc
      | ⟨1, _⟩ => exact plain_rhs1 M K N _ _)
  rw [el, er]

/-! ## The three projections -/

/-- A projection `x·Wᵀ`: the block of `x` with its unit axis dropped against the transposed weights, summed over the
    model width; narrowing the operands' format changes nothing at the extended reals. -/
theorem pay4_apply (v46 : Vec Ideal S1x2048x512 .f32) (v49 : Vec Ideal S64x512 .f32) (t : Fin 2048) (h : Fin 64) :
    k0_pay4 (F := Ideal) v46 v49 (ix2 t h) = ∑ c : Fin 512, v46 (ix3 0 t c) * v49 (ix2 h c) := by
  unfold k0_pay4 k0_pay3
  rw [shapeCast_self]
  refine (plain_matmul_zero_apply (M := 2048) (K := 512) (N := 64) _ _ t h).trans ?_
  refine Finset.sum_congr rfl fun c _ => ?_
  rw [truncf_apply, shapeCast_1ab_ab_apply, transpose_ix2_apply, truncf_apply]

/-- The second projection: the same product against the second weight matrix. -/
theorem pay5_apply (v46 : Vec Ideal S1x2048x512 .f32) (v51 : Vec Ideal S64x512 .f32) (t : Fin 2048) (h : Fin 64) :
    k0_pay5 (F := Ideal) v46 v51 (ix2 t h) = ∑ c : Fin 512, v46 (ix3 0 t c) * v51 (ix2 h c) := by
  unfold k0_pay5 k0_pay3
  rw [shapeCast_self]
  refine (plain_matmul_zero_apply (M := 2048) (K := 512) (N := 64) _ _ t h).trans ?_
  refine Finset.sum_congr rfl fun c _ => ?_
  rw [truncf_apply, shapeCast_1ab_ab_apply, transpose_ix2_apply, truncf_apply]

/-- The third projection: the same product against the third weight matrix. -/
theorem pay6_apply (v46 : Vec Ideal S1x2048x512 .f32) (v53 : Vec Ideal S64x512 .f32) (t : Fin 2048) (h : Fin 64) :
    k0_pay6 (F := Ideal) v46 v53 (ix2 t h) = ∑ c : Fin 512, v46 (ix3 0 t c) * v53 (ix2 h c) := by
  unfold k0_pay6 k0_pay3
  rw [shapeCast_self]
  refine (plain_matmul_zero_apply (M := 2048) (K := 512) (N := 64) _ _ t h).trans ?_
  refine Finset.sum_congr rfl fun c _ => ?_
  rw [truncf_apply, shapeCast_1ab_ab_apply, transpose_ix2_apply, truncf_apply]

/-! ## The attention tile -/

/-- The mask's bit at query `r` and the tile's key `cl`, in tile number `ct`: every number involved is far below
    `2^31`, so the signed comparison of the 32-bit words is the comparison of the naturals. -/
theorem maskBit_iff (ct : Nat) (hct : ct < 8) (r : Fin 2048) (cl : Fin 256) :
    IntOp.cmpi .sle (IntOp.addi (Scalar.muli (BitVec.ofNat 32 ct) 256#32) (BitVec.ofNat 32 cl.val)) (BitVec.ofNat 32 r.val) = 1#1
      ↔ ct * 256 + cl.val ≤ r.val := by
  have hcl := cl.isLt
  have hr := r.isLt
  have hx : (IntOp.addi (Scalar.muli (BitVec.ofNat 32 ct) 256#32) (BitVec.ofNat 32 cl.val)).toNat = ct * 256 + cl.val := by
    show (BitVec.ofNat 32 ct * 256#32 + BitVec.ofNat 32 cl.val).toNat = _
    simp only [BitVec.toNat_add, BitVec.toNat_mul, BitVec.toNat_ofNat, Nat.reducePow, Nat.reduceMod]
    omega
  have hy : (BitVec.ofNat 32 r.val).toNat = r.val := by
    simp only [BitVec.toNat_ofNat, Nat.reducePow]
    omega
  rw [IntOp.cmpi_sle, BitVec.toInt_eq_toNat_of_lt (by rw [hx]; omega), BitVec.toInt_eq_toNat_of_lt (by rw [hy]; omega), hx, hy]
  omega

/-- The tile's masked, scaled scores as a vector: query rows against the tile's keys, scaled, `-∞` where the key is
    after the query. -/
def tileScores (i : grid0.Coords) (v5 : Vec Ideal S256x64 .f32) (v8 : Vec Ideal S2048x64 .f32) : FVec Ideal S2048x256 .f32 :=
  select
    (cmpi .sle
      (addi (broadcast S2048x256 (Scalar.muli (BitVec.ofNat 32 (i 1).val) 256#32))
        (iota .tc S2048x256 32 [1] iota_S2048x256_d1_w32))
      (iota .tc S2048x256 32 [0] iota_S2048x256_d0_w32))
    (mulf
      (matmul dot_S2048x64_S64x256_S2048x256_1_0_0_1_n_n none (truncf .bf16 v8 bitsLt_bf16_f32)
        (transpose S64x256 [1, 0] (truncf .bf16 v5 bitsLt_bf16_f32) transposes_S256x64_p1_0_S64x256)
        (constant S2048x256 .f32 0x00000000#32))
      (broadcast S2048x256 (Scalar.ofBits .f32 0x3D3504F3#32)))
    (broadcast S2048x256 (Scalar.ofBits .f32 0xFF800000#32))

/-- The scores at query `r` and the tile's key `cl`. -/
theorem tileScores_apply (i : grid0.Coords) (v5 : Vec Ideal S256x64 .f32) (v8 : Vec Ideal S2048x64 .f32) (r : Fin 2048) (cl : Fin 256) :
    tileScores i v5 v8 (ix2 r cl)
      = if (i 1).val * 256 + cl.val ≤ r.val then (∑ h : Fin 64, v8 (ix2 r h) * v5 (ix2 cl h)) * scale else ninf := by
  have hbit := maskBit_iff (i 1).val (i 1).isLt r cl
  unfold tileScores
  rw [select_apply]
  by_cases hle : (i 1).val * 256 + cl.val ≤ r.val
  · have hb : cmpi .sle
        (addi (broadcast S2048x256 (Scalar.muli (BitVec.ofNat 32 (i 1).val) 256#32))
          (iota .tc S2048x256 32 [1] iota_S2048x256_d1_w32))
        (iota .tc S2048x256 32 [0] iota_S2048x256_d0_w32) (ix2 r cl) = 1#1 := by
      show IntOp.cmpi .sle (IntOp.addi _ (iota .tc S2048x256 32 [1] iota_S2048x256_d1_w32 (ix2 r cl)))
        (iota .tc S2048x256 32 [0] iota_S2048x256_d0_w32 (ix2 r cl)) = 1#1
      rw [iota_single_apply, iota_single_apply]
      exact hbit.mpr hle
    rw [hb, select_one, if_pos hle, mulf_apply]
    refine congrArg₂ (· * ·) ?_ rfl
    refine (plain_matmul_zero_apply (M := 2048) (K := 64) (N := 256) _ _ r cl).trans ?_
    refine Finset.sum_congr rfl fun h _ => ?_
    rw [truncf_apply, transpose_ix2_apply, truncf_apply]
  · have hb : cmpi .sle
        (addi (broadcast S2048x256 (Scalar.muli (BitVec.ofNat 32 (i 1).val) 256#32))
          (iota .tc S2048x256 32 [1] iota_S2048x256_d1_w32))
        (iota .tc S2048x256 32 [0] iota_S2048x256_d0_w32) (ix2 r cl) = 0#1 := by
      refine eq_zero_of_ne_one fun h1 => hle (hbit.mp ?_)
      have h2 : IntOp.cmpi .sle (IntOp.addi (Scalar.muli (BitVec.ofNat 32 (i 1).val) 256#32) (iota .tc S2048x256 32 [1] iota_S2048x256_d1_w32 (ix2 r cl)))
        (iota .tc S2048x256 32 [0] iota_S2048x256_d0_w32 (ix2 r cl)) = 1#1 := h1
      rw [iota_single_apply, iota_single_apply] at h2
      exact h2
    rw [hb, select_zero, if_neg hle]
    rfl

/-- The source index over column `cl` with query `r'` put back on the reduced axis is `(r', cl)`. -/
theorem lift_col (cl : Fin 256) (r' : Fin 2048) :
    reduces_S2048x256_S256.lift (ix1 cl) r' = ix2 r' cl :=
  funext fun a => Fin.ext (match a with | ⟨0, _⟩ => rfl | ⟨1, _⟩ => rfl)

/-- The maximum down a column, from `-∞`: the fold of `max` over the queries. -/
theorem colMax_apply (m : FVec Ideal S2048x256 .f32) (hφ : FKind.Formats .f32)
    (hacc : (0xFF800000#32 : BitVec (FTy.bits .f32)) = FKind.maximumf.neutral .f32 hφ) (cl : Fin 256) :
    multiReduction (F := Ideal) .maximumf [0] S256 m 0xFF800000#32 reduces_S2048x256_S256 hφ hacc (ix1 cl)
      = (Finset.univ : Finset (Fin 2048)).fold max ninf (fun r' => m (ix2 r' cl)) := by
  refine (Ideal.multiReduction_maximumf_single m _ reduces_S2048x256_S256 hφ hacc (ix1 cl)).trans ?_
  have hf : (m ∘ reduces_S2048x256_S256.lift (ix1 cl)) = fun r' : Fin 2048 => m (ix2 r' cl) :=
    funext fun r' => congrArg m (lift_col cl r')
  rw [hf]
  rfl

/-- The sum down a column: the sum over the queries. -/
theorem colSum_apply (m : FVec Ideal S2048x256 .f32) (hφ : FKind.Formats .f32)
    (hacc : (0x00000000#32 : BitVec (FTy.bits .f32)) = FKind.add.neutral .f32 hφ) (cl : Fin 256) :
    multiReduction (F := Ideal) .add [0] S256 m 0x00000000#32 reduces_S2048x256_S256 hφ hacc (ix1 cl)
      = ∑ r' : Fin 2048, m (ix2 r' cl) := by
  refine (Ideal.multiReduction_add_single m _ reduces_S2048x256_S256 hφ hacc (ix1 cl)).trans ?_
  exact Finset.sum_congr rfl fun r' _ => congrArg m (lift_col cl r')

/-- A column statistic spread back over the rows reads, at `(r, cl)`, the statistic of column `cl`. -/
theorem rowSpread_apply (v : FVec Ideal S256 .f32) (r : Fin 2048) (cl : Fin 256) :
    broadcastTo S2048x256 (shapeCast S1x256 v shapeCasts_S256_S1x256) broadcasts_S1x256_S2048x256 (ix2 r cl) = v (ix1 cl) := by
  rw [broadcastTo_1b_ab_apply, shapeCast_a_1a_apply]

/-- The softmax down the columns of a vector of scores, as the kernel computes it: subtract the column's maximum,
    exponentiate, divide by the column's sum. -/
def colSmx (m : FVec Ideal S2048x256 .f32) : FVec Ideal S2048x256 .f32 :=
  have v22 : FVec Ideal S256 .f32 := multiReduction .maximumf [0] S256 m 0xFF800000#32 reduces_S2048x256_S256 (.inl rfl) rfl
  have v24 : FVec Ideal S2048x256 .f32 := broadcastTo S2048x256 (shapeCast S1x256 v22 shapeCasts_S256_S1x256) broadcasts_S1x256_S2048x256
  have v26 : FVec Ideal S2048x256 .f32 := exp (subf m v24)
  have v27 : FVec Ideal S256 .f32 := multiReduction .add [0] S256 v26 0x00000000#32 reduces_S2048x256_S256 (.inl rfl) rfl
  have v29 : FVec Ideal S2048x256 .f32 := broadcastTo S2048x256 (shapeCast S1x256 v27 shapeCasts_S256_S1x256) broadcasts_S1x256_S2048x256
  divf v26 v29

/-- It is the specification's column softmax, column by column. -/
theorem colSmx_apply (m : FVec Ideal S2048x256 .f32) (r : Fin 2048) (cl : Fin 256) :
    colSmx m (ix2 r cl) = colSoftmax (fun r' : Fin 2048 => m (ix2 r' cl)) r := by
  have hE : ∀ r' : Fin 2048,
      exp (subf m (broadcastTo S2048x256 (shapeCast S1x256
          (multiReduction (F := Ideal) .maximumf [0] S256 m 0xFF800000#32 reduces_S2048x256_S256 (.inl rfl) rfl)
          shapeCasts_S256_S1x256) broadcasts_S1x256_S2048x256)) (ix2 r' cl)
        = Ideal.exp (m (ix2 r' cl) - (Finset.univ : Finset (Fin 2048)).fold max ninf (fun r'' => m (ix2 r'' cl))) := by
    intro r'
    show Ideal.exp (m (ix2 r' cl) - broadcastTo S2048x256 _ _ (ix2 r' cl)) = _
    rw [rowSpread_apply]
    exact congrArg (fun z => Ideal.exp (m (ix2 r' cl) - z)) (colMax_apply m _ _ cl)
  unfold colSmx colSoftmax
  rw [divf_apply, rowSpread_apply]
  refine congrArg₂ Ideal.div (hE r) ?_
  refine (colSum_apply _ _ _ cl).trans ?_
  exact Finset.sum_congr rfl fun r' _ => hE r'

/-- The tile of weights is the column softmax of the tile's scores. -/
theorem pay8_eq (i : grid0.Coords) (v5 : Vec Ideal S256x64 .f32) (v8 : Vec Ideal S2048x64 .f32) :
    k0_pay8 (F := Ideal) i v5 v8 = colSmx (tileScores i v5 v8) := rfl

/-- The tile of weights at query `r` and the tile's key `cl`: the softmax, down that key's column, of the masked scores. -/
theorem pay8_apply (i : grid0.Coords) (v5 : Vec Ideal S256x64 .f32) (v8 : Vec Ideal S2048x64 .f32) (r : Fin 2048) (cl : Fin 256) :
    k0_pay8 (F := Ideal) i v5 v8 (ix2 r cl)
      = colSoftmax (fun r' : Fin 2048 =>
          if (i 1).val * 256 + cl.val ≤ r'.val then (∑ h : Fin 64, v8 (ix2 r' h) * v5 (ix2 cl h)) * scale else ninf) r := by
  rw [pay8_eq, colSmx_apply]
  exact congrArg (fun s => colSoftmax s r) (funext fun r' => tileScores_apply i v5 v8 r' cl)

/-- The tile of weights is stored as a `[1, 2048, 256]` block: the same entries behind a unit axis. -/
theorem pay9_apply (i : grid0.Coords) (v5 : Vec Ideal S256x64 .f32) (v8 : Vec Ideal S2048x64 .f32) (r : Fin 2048) (cl : Fin 256) :
    k0_pay9 (F := Ideal) i v5 v8 (ix3 0 r cl) = k0_pay8 (F := Ideal) i v5 v8 (ix2 r cl) := by
  unfold k0_pay9
  exact shapeCast_ab_1ab_apply (k0_pay8 (F := Ideal) i v5 v8) _ 0 r cl

/-! ## The tile's contribution to the output -/

/-- The tile's contribution: the tile of weights against the tile's values, summed over the tile's 256 keys. -/
theorem pay10_apply (i : grid0.Coords) (v5 v7 : Vec Ideal S256x64 .f32) (v8 : Vec Ideal S2048x64 .f32) (r : Fin 2048) (h : Fin 64) :
    k0_pay10 (F := Ideal) i v5 v7 v8 (ix2 r h) = ∑ cl : Fin 256, k0_pay8 (F := Ideal) i v5 v8 (ix2 r cl) * v7 (ix2 cl h) := by
  unfold k0_pay10
  refine (plain_matmul_zero_apply (M := 2048) (K := 256) (N := 64) _ _ r h).trans ?_
  refine Finset.sum_congr rfl fun cl _ => ?_
  rw [truncf_apply, truncf_apply]

end Cert.KPay

end
-- ==== Proof.Algebra.lean ====
import proofs.«140624_j29308856828594_1_alg».proof.Proof.Spec
import Mathlib.Algebra.BigOperators.Fin
import Mathlib.Logic.Equiv.Fin.Basic

/-!
# The key axis cut into eight tiles

The kernel walks the 2048 keys of a batch in eight tiles of 256 and adds each tile's contribution to the output.
Key `256·ct + cl` is the `cl`-th key of tile `ct`; the sum over all keys is the sum over the tiles of the sums
within a tile (a re-indexing of a finite sum in a commutative monoid: no finiteness is needed), and the running sum
after tiles `0 … ct` is the running sum after tiles `0 … ct - 1` plus tile `ct`'s contribution.
-/

noncomputable section

namespace Cert.Attn

open Idealize.ShloMosaic Idealize.ShloMosaic.ValueIdx

/-- Key `256·ct + cl`: the `cl`-th key of key tile `ct`. -/
def trow (ct : Fin 8) (cl : Fin 256) : Fin 2048 := ⟨ct.val * 256 + cl.val, by have := ct.isLt; have := cl.isLt; omega⟩

theorem trow_val (ct : Fin 8) (cl : Fin 256) : (trow ct cl).val = ct.val * 256 + cl.val := rfl

/-- A sum over the 2048 keys is the sum over the eight tiles of the sums over a tile's 256 keys. -/
theorem sum_tiles {M : Type*} [AddCommMonoid M] (f : Fin 2048 → M) :
    ∑ ct : Fin 8, ∑ cl : Fin 256, f (trow ct cl) = ∑ j : Fin 2048, f j := by
  rw [← Fintype.sum_prod_type']
  refine Fintype.sum_equiv (finProdFinEquiv : Fin 8 × Fin 256 ≃ Fin (8 * 256)) _ _ (fun p => ?_)
  refine congrArg f (Fin.ext ?_)
  show p.1.val * 256 + p.2.val = p.2.val + 256 * p.1.val
  omega

/-- What key tile `ct` of batch `b` adds to the output at query `r`, head coordinate `h`. -/
def tileSum (x : SX.Idx → EReal) (wk wq wv : SW.Idx → EReal) (b ct : Fin 8) (r : Fin 2048) (h : Fin 64) : EReal :=
  ∑ cl : Fin 256, attn x wk wq b r (trow ct cl) * proj x wv b (trow ct cl) h

/-- The output's running sum after the key tiles below `n`. -/
def partialOut (x : SX.Idx → EReal) (wk wq wv : SW.Idx → EReal) (b : Fin 8) (n : ℕ) (r : Fin 2048) (h : Fin 64) : EReal :=
  ∑ ct ∈ Finset.univ.filter (fun ct : Fin 8 => ct.val < n), tileSum x wk wq wv b ct r h

theorem partialOut_zero (x : SX.Idx → EReal) (wk wq wv : SW.Idx → EReal) (b : Fin 8) (r : Fin 2048) (h : Fin 64) :
    partialOut x wk wq wv b 0 r h = 0 := by
  unfold partialOut
  rw [Finset.filter_false_of_mem (fun ct _ => Nat.not_lt_zero _), Finset.sum_empty]

theorem partialOut_succ (x : SX.Idx → EReal) (wk wq wv : SW.Idx → EReal) (b ct : Fin 8) (r : Fin 2048) (h : Fin 64) :
    partialOut x wk wq wv b (ct.val + 1) r h = partialOut x wk wq wv b ct.val r h + tileSum x wk wq wv b ct r h := by
  unfold partialOut
  have e : Finset.univ.filter (fun c' : Fin 8 => c'.val < ct.val + 1)
      = insert ct (Finset.univ.filter (fun c' : Fin 8 => c'.val < ct.val)) := by
    ext c'
    simp only [Finset.mem_filter, Finset.mem_univ, true_and, Finset.mem_insert]
    constructor
    · intro hlt
      rcases Nat.lt_succ_iff_lt_or_eq.mp hlt with h1 | h1
      · exact Or.inr h1
      · exact Or.inl (Fin.ext h1)
    · rintro (rfl | h1)
      · exact Nat.lt_succ_self _
      · exact Nat.lt_succ_of_lt h1
  rw [e, Finset.sum_insert (by simp), add_comm]

/-- After all eight tiles the running sum is the output. -/
theorem partialOut_eight (x : SX.Idx → EReal) (wk wq wv : SW.Idx → EReal) (b : Fin 8) (r : Fin 2048) (h : Fin 64) :
    partialOut x wk wq wv b 8 r h = out x wk wq wv b r h := by
  unfold partialOut out
  rw [Finset.filter_true_of_mem (fun ct _ => ct.isLt)]
  exact sum_tiles (fun j => attn x wk wq b r j * proj x wv b j h)

end Cert.Attn

end
-- ==== Proof.TileValue.lean ====
import proofs.«140624_j29308856828594_1_alg».proof.Proof.Pieces
import proofs.«140624_j29308856828594_1_alg».proof.Proof.Payload
import proofs.«140624_j29308856828594_1_alg».proof.Proof.Algebra

/-!
# One key tile's work, as extended reals

Given the three tables at a point — `k`, `q`, `v`, each known entry by entry to be the projection of the batch's slab
of `x` — the tile of weights the body stores is the specification's `attn` at the tile's keys, and the running sum it
leaves is the running sum it found plus the tile's contribution. Nothing here needs a finite entry: both sides are the
same sums, maxima, exponentials and quotients of the same extended reals.
-/

noncomputable section

open Idealize.ShloMosaic Idealize.ShloMosaic.ValueIdx

namespace Cert.KernelIdeal.TileValue

open Cert.KernelIdeal Cert.KernelIdeal.Gen Cert.KernelIdeal.Pieces Cert.Attn

/-- Row `cl` of the tile's rows of a table is the table's row `256·ct + cl`. -/
theorem tile_apply (i : grid0.Coords) (P : Vec Ideal S2048x64 .f32) (cl : Fin 256) (h : Fin 64) :
    tile i P (ix2 cl h) = P (ix2 (trow (i 1) cl) h) := by
  unfold tile
  show P ((Rect.unit (s := S2048x64) (k0_off1 i) S256x64.size (k0_off1_inb i)).idx (ix2 cl h)) = _
  congr 1
  funext a
  apply Fin.ext
  have e := k0_off1_eq i
  match a with
  | ⟨0, _⟩ =>
    show k0_off1 i 0 + 1 * cl.val = (i 1).val * 256 + cl.val
    rw [e]; show 256 * (i 1).val + 1 * cl.val = _; omega
  | ⟨1, _⟩ =>
    show k0_off1 i 1 + 1 * h.val = h.val
    rw [e]; show 0 + 1 * h.val = _; omega

/-- The stored tile of weights, entry by entry, from tables that are the projections: the specification's weights at
    the tile's keys. -/
theorem weights_eq (i : grid0.Coords) (k q : Vec Ideal S2048x64 .f32) (x : SX.Idx → EReal) (wk wq : SW.Idx → EReal) (b : Fin 8)
    (hk : ∀ r h, k (ix2 r h) = proj x wk b r h) (hq : ∀ r h, q (ix2 r h) = proj x wq b r h) (r : Fin 2048) (cl : Fin 256) :
    weights i k q (ix3 0 r cl) = attn x wk wq b r (trow (i 1) cl) := by
  unfold weights
  rw [KPay.pay9_apply, KPay.pay8_apply]
  unfold attn
  refine congrArg (fun s => colSoftmax s r) (funext fun r' => ?_)
  unfold masked
  refine if_congr Iff.rfl ?_ rfl
  refine congrArg (· * scale) (Finset.sum_congr rfl fun h _ => ?_)
  rw [hq, tile_apply, hk]

/-- The running sum a tile leaves: what it found plus the tile's weights against the tile's values. -/
theorem step_apply (i : grid0.Coords) (k q v acc : Vec Ideal S2048x64 .f32) (r : Fin 2048) (h : Fin 64) :
    step i k q v acc (ix2 r h) = acc (ix2 r h) + ∑ cl : Fin 256, weights i k q (ix3 0 r cl) * v (ix2 (trow (i 1) cl) h) := by
  unfold step
  rw [KPay.pay1_apply, KPay.pay10_apply]
  refine congrArg (acc (ix2 r h) + ·) (Finset.sum_congr rfl fun cl _ => ?_)
  rw [tile_apply]
  unfold weights
  rw [KPay.pay9_apply]

/-- From tables that are the projections and a running sum that is the sum over the tiles before `ct`, the tile leaves
    the sum over the tiles up to `ct`. -/
theorem step_eq (i : grid0.Coords) (k q v acc : Vec Ideal S2048x64 .f32) (x : SX.Idx → EReal) (wk wq wv : SW.Idx → EReal) (b : Fin 8)
    (hk : ∀ r h, k (ix2 r h) = proj x wk b r h) (hq : ∀ r h, q (ix2 r h) = proj x wq b r h)
    (hv : ∀ r h, v (ix2 r h) = proj x wv b r h)
    (hacc : ∀ r h, acc (ix2 r h) = partialOut x wk wq wv b (i 1).val r h) (r : Fin 2048) (h : Fin 64) :
    step i k q v acc (ix2 r h) = partialOut x wk wq wv b ((i 1).val + 1) r h := by
  rw [step_apply, hacc, partialOut_succ x wk wq wv b (i 1) r h]
  refine congrArg (partialOut x wk wq wv b (i 1).val r h + ·) ?_
  unfold tileSum
  refine Finset.sum_congr rfl fun cl _ => ?_
  rw [weights_eq i k q x wk wq b hk hq, hv]

end Cert.KernelIdeal.TileValue

end
-- ==== Proof.Induct.lean ====
import proofs.«140624_j29308856828594_1_alg».proof.Proof.Blocks
import proofs.«140624_j29308856828594_1_alg».proof.Proof.TileValue

/-!
# What the buffers hold after every grid point

After the point of batch `b`, key tile `ct`: the three carried tables are the projections `k`, `q`, `v` of the batch's
slab of `x`; the carried running sum, and the output's block copied from it, are the output's sum over the key tiles
`0 … ct`; the weights' block is the specification's weights at the tile's 256 keys. By induction on the point: a
batch's first point computes the tables afresh and starts the sum from zero, a later point finds the tables and the sum
the point before left.
-/

noncomputable section

open Idealize.ShloMosaic Idealize.ShloMosaic.TcCoe Idealize.SL.Sem Idealize.ShloMosaic.ValueIdx

namespace Cert.KernelIdeal.AttnRun

open Cert.KernelIdeal Cert.KernelIdeal.Gen Cert.KernelIdeal.Pieces Cert.KernelIdeal.Blocks Cert.KernelIdeal.TileValue Cert.Attn

variable (m : (ℓ : Loc nD τ sig) → Buf (Elt Ideal) ℓ)

/-- The buffers after point `t`, entry by entry. -/
structure Inv (c : Dev nD) (t : Fin cfg0.N) : Prop where
  k : ∀ r h, (outsAt0 m c t.val t.isLt).2.2.1 (ix2 r h) = proj (V m c main_arg0) (V m c main_arg1) (bOf t) r h
  q : ∀ r h, (outsAt0 m c t.val t.isLt).2.2.2.1 (ix2 r h) = proj (V m c main_arg0) (V m c main_arg2) (bOf t) r h
  v : ∀ r h, (outsAt0 m c t.val t.isLt).2.2.2.2.1 (ix2 r h) = proj (V m c main_arg0) (V m c main_arg3) (bOf t) r h
  acc : ∀ r h, (outsAt0 m c t.val t.isLt).2.2.2.2.2 (ix2 r h)
      = partialOut (V m c main_arg0) (V m c main_arg1) (V m c main_arg2) (V m c main_arg3) (bOf t) (t.val % 8 + 1) r h
  w : ∀ r cl, (outsAt0 m c t.val t.isLt).2.1 (ix3 0 r cl)
      = attn (V m c main_arg0) (V m c main_arg1) (V m c main_arg2) (bOf t) r (trow (ctOf t) cl)
  o : ∀ r h, (outsAt0 m c t.val t.isLt).1 (ix3 0 r h)
      = partialOut (V m c main_arg0) (V m c main_arg1) (V m c main_arg2) (V m c main_arg3) (bOf t) (t.val % 8 + 1) r h

/-- The keys' table a batch's first point computes is the keys' projection of the batch's slab; -/
theorem kNew (c : Dev nD) (t : Fin cfg0.N) (r : Fin 2048) (h : Fin 64) :
    k0_pay4 (F := Ideal) (iblk m c 0 t) (iblk m c 1 t) (ix2 r h) = proj (V m c main_arg0) (V m c main_arg1) (bOf t) r h := by
  refine (KPay.pay4_apply (iblk m c 0 t) (iblk m c 1 t) r h).trans ?_
  unfold proj
  exact Finset.sum_congr rfl fun cc _ => by rw [xblk m c t r cc, wblk1 m c t h cc]

/-- the queries' table likewise; -/
theorem qNew (c : Dev nD) (t : Fin cfg0.N) (r : Fin 2048) (h : Fin 64) :
    k0_pay5 (F := Ideal) (iblk m c 0 t) (iblk m c 2 t) (ix2 r h) = proj (V m c main_arg0) (V m c main_arg2) (bOf t) r h := by
  refine (KPay.pay5_apply (iblk m c 0 t) (iblk m c 2 t) r h).trans ?_
  unfold proj
  exact Finset.sum_congr rfl fun cc _ => by rw [xblk m c t r cc, wblk2 m c t h cc]

/-- and the values' table. -/
theorem vNew (c : Dev nD) (t : Fin cfg0.N) (r : Fin 2048) (h : Fin 64) :
    k0_pay6 (F := Ideal) (iblk m c 0 t) (iblk m c 3 t) (ix2 r h) = proj (V m c main_arg0) (V m c main_arg3) (bOf t) r h := by
  refine (KPay.pay6_apply (iblk m c 0 t) (iblk m c 3 t) r h).trans ?_
  unfold proj
  exact Finset.sum_congr rfl fun cc _ => by rw [xblk m c t r cc, wblk3 m c t h cc]

/-- A batch's first point: fresh tables, the sum started from zero. -/
theorem invA (c : Dev nD) (t : Fin cfg0.N) (h0 : t.val % 8 = 0) : Inv m c t := by
  have e1 : (grid0.coords t 1).val = t.val % 8 := (idx_facts t).2.2.2.2.2.2.2.2.2.2.2.2.2.2.2.2
  have hacc : ∀ r h, (k0_pay7 (F := Ideal)) (ix2 r h)
      = partialOut (V m c main_arg0) (V m c main_arg1) (V m c main_arg2) (V m c main_arg3) (bOf t) (grid0.coords t 1).val r h := by
    intro r h
    rw [KPay.pay7_apply, e1, h0, partialOut_zero]
  have hstep : ∀ r h, step (F := Ideal) (grid0.coords t) (k0_pay4 (F := Ideal) (iblk m c 0 t) (iblk m c 1 t)) (k0_pay5 (F := Ideal) (iblk m c 0 t) (iblk m c 2 t))
        (k0_pay6 (F := Ideal) (iblk m c 0 t) (iblk m c 3 t)) (k0_pay7 (F := Ideal)) (ix2 r h)
      = partialOut (V m c main_arg0) (V m c main_arg1) (V m c main_arg2) (V m c main_arg3) (bOf t) (t.val % 8 + 1) r h := by
    intro r h
    rw [← e1]
    exact step_eq (grid0.coords t) _ _ _ _ (V m c main_arg0) (V m c main_arg1) (V m c main_arg2) (V m c main_arg3) (bOf t)
      (kNew m c t) (qNew m c t) (vNew m c t) hacc r h
  refine ⟨?_, ?_, ?_, ?_, ?_, ?_⟩
  · intro r h
    rw [outsAt0_A m c t h0]; dsimp only
    rw [kA]; exact kNew m c t r h
  · intro r h
    rw [outsAt0_A m c t h0]; dsimp only
    rw [qA]; exact qNew m c t r h
  · intro r h
    rw [outsAt0_A m c t h0]; dsimp only
    rw [vA]; exact vNew m c t r h
  · intro r h
    rw [outsAt0_A m c t h0]; dsimp only
    rw [accA]; exact hstep r h
  · intro r cl
    rw [outsAt0_A m c t h0]; dsimp only
    rw [wA, ← coords1 t]
    exact weights_eq (grid0.coords t) _ _ (V m c main_arg0) (V m c main_arg1) (V m c main_arg2) (bOf t) (kNew m c t) (qNew m c t) r cl
  · intro r h
    rw [outsAt0_A m c t h0]; dsimp only
    rw [oA, KPay.pay2_apply]; exact hstep r h

/-- A later point of a batch: the tables and the sum the point before left. -/
theorem invB (c : Dev nD) (t : Fin cfg0.N) (h0 : ¬t.val % 8 = 0)
    (ih : Inv m c ⟨t.val - 1, Nat.lt_of_le_of_lt (Nat.sub_le _ _) t.isLt⟩) : Inv m c t := by
  have e1 : (grid0.coords t 1).val = t.val % 8 := (idx_facts t).2.2.2.2.2.2.2.2.2.2.2.2.2.2.2.2
  have hb : bOf (⟨t.val - 1, Nat.lt_of_le_of_lt (Nat.sub_le _ _) t.isLt⟩ : Fin cfg0.N) = bOf t :=
    Fin.ext (by show (t.val - 1) / 8 = t.val / 8; omega)
  have hn : (t.val - 1) % 8 + 1 = t.val % 8 := by omega
  obtain ⟨ik, iq, iv, iacc, -, -⟩ := ih
  rw [hb] at ik iq iv iacc
  dsimp only at iacc
  rw [hn, ← e1] at iacc
  have hstep : ∀ r h, step (F := Ideal) (grid0.coords t)
        (outsAt0 m c (t.val - 1) (Nat.lt_of_le_of_lt (Nat.sub_le _ _) t.isLt)).2.2.1
        (outsAt0 m c (t.val - 1) (Nat.lt_of_le_of_lt (Nat.sub_le _ _) t.isLt)).2.2.2.1
        (outsAt0 m c (t.val - 1) (Nat.lt_of_le_of_lt (Nat.sub_le _ _) t.isLt)).2.2.2.2.1
        (outsAt0 m c (t.val - 1) (Nat.lt_of_le_of_lt (Nat.sub_le _ _) t.isLt)).2.2.2.2.2 (ix2 r h)
      = partialOut (V m c main_arg0) (V m c main_arg1) (V m c main_arg2) (V m c main_arg3) (bOf t) (t.val % 8 + 1) r h := by
    intro r h
    rw [← e1]
    exact step_eq (grid0.coords t) _ _ _ _ (V m c main_arg0) (V m c main_arg1) (V m c main_arg2) (V m c main_arg3) (bOf t)
      ik iq iv iacc r h
  refine ⟨?_, ?_, ?_, ?_, ?_, ?_⟩
  · intro r h
    rw [outsAt0_B m c t h0]; dsimp only
    unfold sout0_B_0; exact ik r h
  · intro r h
    rw [outsAt0_B m c t h0]; dsimp only
    unfold sout0_B_1; exact iq r h
  · intro r h
    rw [outsAt0_B m c t h0]; dsimp only
    unfold sout0_B_2; exact iv r h
  · intro r h
    rw [outsAt0_B m c t h0]; dsimp only
    rw [accB]; exact hstep r h
  · intro r cl
    rw [outsAt0_B m c t h0]; dsimp only
    rw [wB, ← coords1 t]
    exact weights_eq (grid0.coords t) _ _ (V m c main_arg0) (V m c main_arg1) (V m c main_arg2) (bOf t) ik iq r cl
  · intro r h
    rw [outsAt0_B m c t h0]; dsimp only
    rw [oB, KPay.pay2_apply]; exact hstep r h

/-- The invariant at every point, by induction on the point. -/
theorem inv (c : Dev nD) : ∀ (n : ℕ) (h : n < cfg0.N), Inv m c ⟨n, h⟩ := by
  intro n
  induction n with
  | zero => intro h; exact invA m c ⟨0, h⟩ rfl
  | succ n ih =>
    intro h
    by_cases h0 : (n + 1) % 8 = 0
    · exact invA m c ⟨n + 1, h⟩ h0
    · exact invB m c ⟨n + 1, h⟩ h0 (ih (Nat.lt_of_succ_lt h))

end Cert.KernelIdeal.AttnRun

end
-- ==== Proof.Final.lean ====
import proofs.«140624_j29308856828594_1_alg».proof.Proof.Induct

/-!
# The two result arrays after the run

The weights' window writes its block back at every point, and the 64 blocks tile the `[8, 2048, 2048]` array: so the
array ends holding the specification's weights. The output's window shows one block per batch and writes it back after
the batch's last key tile only, when the running sum has taken in all eight tiles and is the output: the eight blocks
tile the `[8, 2048, 64]` array.
-/

noncomputable section

open Idealize.ShloMosaic Idealize.ShloMosaic.TcCoe Idealize.SL.Sem Idealize.ShloMosaic.ValueIdx
open Idealize.ShloMosaic.Pipeline (Dat)

namespace Cert.KernelIdeal.AttnRun

open Cert.KernelIdeal Cert.KernelIdeal.Gen Cert.KernelIdeal.Blocks Cert.Attn

variable (m : (ℓ : Loc nD τ sig) → Buf (Elt Ideal) ℓ) (ρ : Dev nD → PrngReg)

/-- The attention weights as an array: the specification's `attn` of the argument arrays, entry by entry. -/
def weightsArr (c : Dev nD) : S8x2048x2048.Idx → EReal :=
  fun i => attn (V m c main_arg0) (V m c main_arg1) (V m c main_arg2) (i 0) (i 1) (i 2)

/-- The head's output as an array: the specification's `out` of the argument arrays, entry by entry. -/
def outArr (c : Dev nD) : S8x2048x64.Idx → EReal :=
  fun i => out (V m c main_arg0) (V m c main_arg1) (V m c main_arg2) (V m c main_arg3) (i 0) (i 1) (i 2)

theorem inv' (c : Dev nD) (t : Fin cfg0.N) : Inv m c t := inv m c t.val t.isLt

/-- What point `t` writes back to the weights' array is block `t` of the weights. -/
theorem flushed5_eq (c : Dev nD) (t : Fin cfg0.N) :
    (dats m 0 c).flushed 5 t = ((cfg0.win 5).blk t).view.read (Elt Ideal) (weightsArr m c) := by
  rw [Cert.KernelIdeal.Value.flushed5]
  funext j
  obtain ⟨z, r, cl, rfl⟩ : ∃ (z : Fin 1) (r : Fin 2048) (cl : Fin 256), j = ix3 z r cl :=
    ⟨j 0, j 1, j 2, eq_ix3 (n0 := 1) (n1 := 2048) (n2 := 256) j⟩
  obtain rfl : z = 0 := Subsingleton.elim _ _
  show (outsAt0 m c t.val t.isLt).2.1 (ix3 0 r cl) = weightsArr m c (((cfg0.win 5).blk t).view.emb (ix3 0 r cl))
  rw [(inv' m c t).w r cl]
  have hemb : ((cfg0.win 5).blk t).view.emb (ix3 (0 : Fin 1) r cl) = ix3 (bOf t) r (trow (ctOf t) cl) := by
    funext a
    apply Fin.ext
    obtain ⟨-, -, -, -, -, -, -, -, -, -, -, -, e0, e1, e2, -⟩ := idx_facts t
    match a with
    | ⟨0, _⟩ => show win0_5.index t (0 : Fin 3) * 1 + 1 * 0 = t.val / 8; rw [e0]; omega
    | ⟨1, _⟩ => show win0_5.index t (1 : Fin 3) * 2048 + 1 * r.val = r.val; rw [e1]; omega
    | ⟨2, _⟩ => show win0_5.index t (2 : Fin 3) * 256 + 1 * cl.val = t.val % 8 * 256 + cl.val; rw [e2]; omega
  rw [hemb]
  rfl

/-- What a batch's last point writes back to the output array is the batch's block of the output. -/
theorem flushed4_eq (c : Dev nD) (t : Fin cfg0.N) (hf : (cfg0.win 4).flush t = true) :
    (dats m 0 c).flushed 4 t = ((cfg0.win 4).blk t).view.read (Elt Ideal) (outArr m c) := by
  have h7 : t.val % 8 = 7 := (flush0_4 t).mp hf
  rw [Cert.KernelIdeal.Value.flushed4]
  funext j
  obtain ⟨z, r, h, rfl⟩ : ∃ (z : Fin 1) (r : Fin 2048) (h : Fin 64), j = ix3 z r h :=
    ⟨j 0, j 1, j 2, eq_ix3 (n0 := 1) (n1 := 2048) (n2 := 64) j⟩
  obtain rfl : z = 0 := Subsingleton.elim _ _
  show (outsAt0 m c t.val t.isLt).1 (ix3 0 r h) = outArr m c (((cfg0.win 4).blk t).view.emb (ix3 0 r h))
  rw [(inv' m c t).o r h, h7, partialOut_eight]
  have hemb : ((cfg0.win 4).blk t).view.emb (ix3 (0 : Fin 1) r h) = ix3 (bOf t) r h := by
    funext a
    apply Fin.ext
    obtain ⟨-, -, -, -, -, -, -, -, -, e0, e1, e2, -⟩ := idx_facts t
    match a with
    | ⟨0, _⟩ => show win0_4.index t (0 : Fin 3) * 1 + 1 * 0 = t.val / 8; rw [e0]; omega
    | ⟨1, _⟩ => show win0_4.index t (1 : Fin 3) * 2048 + 1 * r.val = r.val; rw [e1]; omega
    | ⟨2, _⟩ => show win0_4.index t (2 : Fin 3) * 64 + 1 * h.val = h.val; rw [e2]; omega
  rw [hemb]
  rfl

/-- The weights' array after the run. -/
theorem final5 (c : Dev nD) : (dats m 0 c).arrAt 5 cfg0.N = weightsArr m c :=
  (dats m 0 c).arrAt_eq_of_cover 5 (weightsArr m c) (fun t _ => flushed5_eq m c t) (fun i => cover5 i)

/-- The output array after the run. -/
theorem final4 (c : Dev nD) : (dats m 0 c).arrAt 4 cfg0.N = outArr m c :=
  (dats m 0 c).arrAt_eq_of_cover 4 (outArr m c) (fun t hf => flushed4_eq m c t hf) (fun i => cover4 i)

/-- The kernel's run, read: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v0_0) = outArr m c
      ∧ r.2.mem ((c : Thread nD τ).loc main_v0_1) = weightsArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2.1.trans (final5 m c), (h c).2.2⟩)
    (Cert.KernelIdeal.Value.run_blocks m ρ)

end Cert.KernelIdeal.AttnRun

end
-- ==== Proof.RefValue.lean ====
import proofs.«140624_j29308856828594_1_alg».proof.Proof.Gen.ReferenceIdeal.Read
import proofs.«140624_j29308856828594_1_alg».proof.Proof.Spec
import Idealize.ShloMosaic.Lib.Affine

/-!
# The reference's two results are the specification's functions

The reference computes the keys, queries and values as three products with the weights, the scores as the
products of queries with keys times the scale, replaces the scores above the diagonal by -∞, takes the maximum of
each column over the queries (from -∞, and once more against -∞), subtracts it, exponentiates, divides by the sum
of each column over the queries (from 0), and multiplies the weights with the values. Read at an index, stage by
stage: the three products are the specification's projections; the comparison of the two position words is the
comparison of the positions, both being below 2048; the column maximum is the maximum over the queries taken from
-∞, which a further maximum with -∞ leaves unchanged; the column sum starts from the real zero. Hence the weights
at (b, i, j) are the softmax down column j read at query i, and the output at (b, i, h) is their sum against the
value projections over the keys.
-/

noncomputable section

namespace Cert.RefValue

open Cert.ReferenceIdeal Cert.ReferenceIdeal.Read Idealize.ShloMosaic Idealize.ShloMosaic.ValueIdx

/-- The key projection (the reference's first product) at (b, t, h) is the specification's projection. -/
theorem proj0_eq (x0 : (⟨S8x2048x512, .f32⟩ : BufTy).Contents (Elt Ideal)) (w : (⟨S64x512, .f32⟩ : BufTy).Contents (Elt Ideal))
    (b : Fin 8) (t : Fin 2048) (h : Fin 64) :
    val_main_v0 (F := Ideal) x0 w (ix3 b t h) = Cert.Attn.proj x0 w b t h := by
  rw [val_main_v0_apply]
  unfold Cert.Attn.proj
  refine Finset.sum_congr rfl fun c _ => ?_
  have el : lidx_main_v0 (ix3 b t h) c = ix3 b t c :=
    funext fun a => Fin.ext (by match a with | ⟨0, _⟩ => rfl | ⟨1, _⟩ => rfl | ⟨2, _⟩ => rfl)
  have er : ridx_main_v0 (ix3 b t h) c = ix2 h c :=
    funext fun a => Fin.ext (by match a with | ⟨0, _⟩ => rfl | ⟨1, _⟩ => rfl)
  rw [el, er]

/-- The comparison of the two position words: both positions are below 2048, so the signed comparison of
    the 32-bit words is the comparison of the naturals. -/
theorem cmp_iff (i j : Fin 2048) :
    IntOp.cmpi .sge (IntOp.addi (BitVec.ofNat 32 i.val) 0#32) (BitVec.ofNat 32 j.val) = 1#1 ↔ j.val ≤ i.val := by
  have hi := i.isLt
  have hj := j.isLt
  have ei : (BitVec.ofNat 32 i.val).toNat = i.val := by rw [BitVec.toNat_ofNat]; omega
  have ej : (BitVec.ofNat 32 j.val).toNat = j.val := by rw [BitVec.toNat_ofNat]; omega
  rw [IntOp.cmpi_sge]
  unfold IntOp.addi
  rw [BitVec.add_zero, BitVec.toInt_eq_toNat_of_lt (by omega), BitVec.toInt_eq_toNat_of_lt (by omega), ei, ej]
  omega

/-- The lower-triangular mask at (i, j): the bit 1 where j ≤ i, the bit 0 above the diagonal. -/
theorem mask_eq (i j : Fin 2048) :
    val_main_v7 (F := Ideal) (ix2 i j) = if j.val ≤ i.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 i.val) 0#32) (BitVec.ofNat 32 j.val)) 1#1 0#1 = _
  by_cases h : j.val ≤ i.val
  · rw [if_pos h, (cmp_iff i j).2 h, select_one]
  · rw [if_neg h, eq_zero_of_ne_one (fun e => h ((cmp_iff i j).1 e)), select_zero]

/-- The query projection (the reference's second product) at (b, t, h). -/
theorem proj1_eq (x0 : (⟨S8x2048x512, .f32⟩ : BufTy).Contents (Elt Ideal)) (w : (⟨S64x512, .f32⟩ : BufTy).Contents (Elt Ideal))
    (b : Fin 8) (t : Fin 2048) (h : Fin 64) :
    val_main_v1 (F := Ideal) x0 w (ix3 b t h) = Cert.Attn.proj x0 w b t h := by
  rw [val_main_v1_apply]
  unfold Cert.Attn.proj
  refine Finset.sum_congr rfl fun c _ => ?_
  have el : lidx_main_v1 (ix3 b t h) c = ix3 b t c :=
    funext fun a => Fin.ext (by match a with | ⟨0, _⟩ => rfl | ⟨1, _⟩ => rfl | ⟨2, _⟩ => rfl)
  have er : ridx_main_v1 (ix3 b t h) c = ix2 h c :=
    funext fun a => Fin.ext (by match a with | ⟨0, _⟩ => rfl | ⟨1, _⟩ => rfl)
  rw [el, er]

/-- The value projection (the reference's third product) at (b, t, h). -/
theorem proj2_eq (x0 : (⟨S8x2048x512, .f32⟩ : BufTy).Contents (Elt Ideal)) (w : (⟨S64x512, .f32⟩ : BufTy).Contents (Elt Ideal))
    (b : Fin 8) (t : Fin 2048) (h : Fin 64) :
    val_main_v2 (F := Ideal) x0 w (ix3 b t h) = Cert.Attn.proj x0 w b t h := by
  rw [val_main_v2_apply]
  unfold Cert.Attn.proj
  refine Finset.sum_congr rfl fun c _ => ?_
  have el : lidx_main_v2 (ix3 b t h) c = ix3 b t c :=
    funext fun a => Fin.ext (by match a with | ⟨0, _⟩ => rfl | ⟨1, _⟩ => rfl | ⟨2, _⟩ => rfl)
  have er : ridx_main_v2 (ix3 b t h) c = ix2 h c :=
    funext fun a => Fin.ext (by match a with | ⟨0, _⟩ => rfl | ⟨1, _⟩ => rfl)
  rw [el, er]

/-- The scaled score of query i against key j: the inner product of the two projections, times the scale. -/
theorem score_eq (x0 : (⟨S8x2048x512, .f32⟩ : BufTy).Contents (Elt Ideal)) (x1 x2 : (⟨S64x512, .f32⟩ : BufTy).Contents (Elt Ideal))
    (b : Fin 8) (i j : Fin 2048) :
    val_main_v5 (F := Ideal) x0 x1 x2 (ix3 b i j)
      = (∑ h : Fin 64, Cert.Attn.proj x0 x2 b i h * Cert.Attn.proj x0 x1 b j h) * Cert.Attn.scale := by
  rw [val_main_v5_apply, val_main_v4_apply, val_main_cst_apply, val_main_v3_apply]
  show (∑ k : Fin 64, _) * _ = _
  refine congrArg₂ (· * ·) (Finset.sum_congr rfl fun k _ => ?_) rfl
  have el : lidx_main_v3 (ix3 b i j) k = ix3 b i k :=
    funext fun a => Fin.ext (by match a with | ⟨0, _⟩ => rfl | ⟨1, _⟩ => rfl | ⟨2, _⟩ => rfl)
  have er : ridx_main_v3 (ix3 b i j) k = ix3 b j k :=
    funext fun a => Fin.ext (by match a with | ⟨0, _⟩ => rfl | ⟨1, _⟩ => rfl | ⟨2, _⟩ => rfl)
  rw [el, er, proj1_eq, proj0_eq]

/-- The masked score at (b, i, j): the specification's column j read at query i. -/
theorem masked_eq (x0 : (⟨S8x2048x512, .f32⟩ : BufTy).Contents (Elt Ideal)) (x1 x2 : (⟨S64x512, .f32⟩ : BufTy).Contents (Elt Ideal))
    (b : Fin 8) (i j : Fin 2048) :
    val_main_v9 (F := Ideal) x0 x1 x2 (ix3 b i j) = Cert.Attn.masked x0 x1 x2 b j i := by
  have em : idx_main_v8 (idx_main_call1_v1 (ix3 b i j)) = ix2 i j :=
    funext fun a => Fin.ext (by match a with | ⟨0, _⟩ => rfl | ⟨1, _⟩ => rfl)
  rw [val_main_v9_apply, val_main_call1_v1_apply, val_main_v8_apply, em, mask_eq, score_eq,
    val_main_call1_v2_apply, val_main_call1_v0_apply, val_main_cst_0_apply]
  unfold Cert.Attn.masked
  by_cases h : j.val ≤ i.val
  · rw [if_pos h, if_pos h, select_one]
  · rw [if_neg h, if_neg h, select_zero]; rfl

/-- Dropping the query axis of the score array [8, 2048, 2048] leaves the array [8, 2048] of columns. -/
theorem red1 : S8x2048x2048.Reduces [1] S8x2048 := by decide

/-- The index over (b, j) whose coordinate on the reduced (query) axis is k. -/
theorem lift_eq (b : Fin 8) (j k : Fin 2048) : red1.lift (ix2 b j) k = ix3 b k j :=
  funext fun a => Fin.ext (by match a with | ⟨0, _⟩ => rfl | ⟨1, _⟩ => rfl | ⟨2, _⟩ => rfl)

/-- A maximum taken from the filler is not below the filler, so one more maximum with it changes nothing. -/
theorem max_fold (f : Fin 2048 → EReal) (c : EReal) :
    max c ((Finset.univ : Finset (Fin 2048)).fold max c f) = (Finset.univ : Finset (Fin 2048)).fold max c f :=
  max_eq_right ((Finset.le_fold_max c).2 (Or.inl le_rfl))

/-- The column maximum the reference subtracts, at (b, j): the maximum over the queries of column j of the masked
    scores, taken from the filler. -/
theorem colmax_eq (x0 : (⟨S8x2048x512, .f32⟩ : BufTy).Contents (Elt Ideal)) (x1 x2 : (⟨S64x512, .f32⟩ : BufTy).Contents (Elt Ideal))
    (b : Fin 8) (j : Fin 2048) :
    val_main_v12 (F := Ideal) x0 x1 x2 (ix2 b j)
      = (Finset.univ : Finset (Fin 2048)).fold max Cert.Attn.ninf (Cert.Attn.masked x0 x1 x2 b j) := by
  rw [val_main_v12_apply, val_main_v11_apply, val_main_cst_2_apply]
  unfold val_main_v10
  rw [Host.reduce_eq_fold_single _ _ _ _ red1, val_main_cst_1_apply]
  have e : (val_main_v9 (F := Ideal) x0 x1 x2 ∘ red1.lift (ix2 b j)) = Cert.Attn.masked x0 x1 x2 b j :=
    funext fun (k : Fin 2048) =>
      (congrArg (val_main_v9 (F := Ideal) x0 x1 x2) (lift_eq b j k)).trans (masked_eq x0 x1 x2 b k j)
  rw [e]
  exact max_fold _ _

/-- The exponential of the centred masked score at (b, i, j): the numerator of the softmax down column j. -/
theorem exp_eq (x0 : (⟨S8x2048x512, .f32⟩ : BufTy).Contents (Elt Ideal)) (x1 x2 : (⟨S64x512, .f32⟩ : BufTy).Contents (Elt Ideal))
    (b : Fin 8) (i j : Fin 2048) :
    val_main_v16 (F := Ideal) x0 x1 x2 (ix3 b i j)
      = Ideal.exp (Cert.Attn.masked x0 x1 x2 b j i
          - (Finset.univ : Finset (Fin 2048)).fold max Cert.Attn.ninf (Cert.Attn.masked x0 x1 x2 b j)) := by
  have e : idx_main_v13 (idx_main_v14 (ix3 b i j)) = ix2 b j :=
    funext fun a => Fin.ext (by match a with | ⟨0, _⟩ => rfl | ⟨1, _⟩ => rfl)
  rw [val_main_v16_apply, val_main_v15_apply, val_main_v14_apply, val_main_v13_apply, e, colmax_eq, masked_eq]
  rfl

/-- The sum of those exponentials over the queries, at (b, j): the denominator of the softmax down column j.
    The reference's sum starts from the zero word, which is the real zero. -/
theorem denom_eq (x0 : (⟨S8x2048x512, .f32⟩ : BufTy).Contents (Elt Ideal)) (x1 x2 : (⟨S64x512, .f32⟩ : BufTy).Contents (Elt Ideal))
    (b : Fin 8) (j : Fin 2048) :
    val_main_v17 (F := Ideal) x0 x1 x2 (ix2 b j)
      = ∑ i' : Fin 2048, Ideal.exp (Cert.Attn.masked x0 x1 x2 b j i'
          - (Finset.univ : Finset (Fin 2048)).fold max Cert.Attn.ninf (Cert.Attn.masked x0 x1 x2 b j)) := by
  rw [val_main_v17_apply, val_main_cst_3_apply, Ideal.ofBits_def, Ideal.ofBits_zero_f32, zero_add]
  refine Finset.sum_congr rfl fun k _ => ?_
  have e : idx_main_v17 (ix2 b j) k = ix3 b k j :=
    funext fun a => Fin.ext (by match a with | ⟨0, _⟩ => rfl | ⟨1, _⟩ => rfl | ⟨2, _⟩ => rfl)
  rw [e, exp_eq]

/-- The reference's attention weights at (b, i, j) are the specification's: the softmax down column j of the
    masked scores, read at query i. -/
theorem attn_eq (x0 : (⟨S8x2048x512, .f32⟩ : BufTy).Contents (Elt Ideal)) (x1 x2 : (⟨S64x512, .f32⟩ : BufTy).Contents (Elt Ideal))
    (b : Fin 8) (i j : Fin 2048) :
    val_main_v20 (F := Ideal) x0 x1 x2 (ix3 b i j) = Cert.Attn.attn x0 x1 x2 b i j := by
  have e : idx_main_v18 (idx_main_v19 (ix3 b i j)) = ix2 b j :=
    funext fun a => Fin.ext (by match a with | ⟨0, _⟩ => rfl | ⟨1, _⟩ => rfl)
  rw [val_main_v20_apply, val_main_v19_apply, val_main_v18_apply, e, denom_eq, exp_eq]
  rfl

/-- The reference's output at (b, i, h) is the specification's: the weights of query i against the value
    projections, summed over the keys. -/
theorem out_eq (x0 : (⟨S8x2048x512, .f32⟩ : BufTy).Contents (Elt Ideal)) (x1 x2 x3 : (⟨S64x512, .f32⟩ : BufTy).Contents (Elt Ideal))
    (b : Fin 8) (i : Fin 2048) (h : Fin 64) :
    val_main_v21 (F := Ideal) x0 x1 x2 x3 (ix3 b i h) = Cert.Attn.out x0 x1 x2 x3 b i h := by
  rw [val_main_v21_apply]
  unfold Cert.Attn.out
  refine Finset.sum_congr rfl fun k _ => ?_
  have el : lidx_main_v21 (ix3 b i h) k = ix3 b i k :=
    funext fun a => Fin.ext (by match a with | ⟨0, _⟩ => rfl | ⟨1, _⟩ => rfl | ⟨2, _⟩ => rfl)
  have er : ridx_main_v21 (ix3 b i h) k = ix3 b k h :=
    funext fun a => Fin.ext (by match a with | ⟨0, _⟩ => rfl | ⟨1, _⟩ => rfl | ⟨2, _⟩ => rfl)
  rw [el, er, attn_eq, proj2_eq]

end Cert.RefValue

end
-- ==== Proof.lean ====
/-
  One head of causal attention whose softmax runs over the QUERY axis, as a kernel gridded over (batch, key tile),
  against its jnp reference: `k = x·Wkᵀ`, `q = x·Wqᵀ`, `v = x·Wvᵀ`; scores `(q·kᵀ)·scale` with `-∞` above the
  diagonal; each COLUMN of the scores normalised by the softmax over the queries; the output the weights against `v`.

  At the extended reals the two programs are one function of the arguments (Proof/Spec.lean states it): the kernel's
  narrowing of the matmul operands is the identity there; both print the same word for the scale and for `-∞`; a
  column's maximum and sum are the same fold and the same finite sum on both sides, the reference's extra
  `max(-∞, ·)` changing nothing; and the kernel's running sum over the eight key tiles is the reference's one sum over
  the 2048 keys re-indexed (commutativity and associativity of `+` on the extended reals: no entry needs to be
  finite, so the precondition is never opened).

  The kernel side: what each grid point leaves in its buffers (Proof/Pieces.lean), those terms at an index
  (Proof/Payload.lean, Proof/TileValue.lean), the buffers after every point by induction on the point
  (Proof/Blocks.lean, Proof/Induct.lean), the two result arrays after the run (Proof/Final.lean). The reference side:
  its stages read at an index (Proof/RefValue.lean). The sum over the key tiles: Proof/Algebra.lean. The frames of the
  two kernel programs are the generated frame runs; the reference's frame is its generated run with the results dropped;
  the idealization rewrote no operation, so `preserves` has nothing to state.
-/
import proofs.«140624_j29308856828594_1_alg».proof.Defs
import proofs.«140624_j29308856828594_1_alg».proof.Proof.Gen.Kernel
import proofs.«140624_j29308856828594_1_alg».proof.Proof.Gen.Kernel.Skeleton
import proofs.«140624_j29308856828594_1_alg».proof.Proof.Gen.Kernel.Launch
import proofs.«140624_j29308856828594_1_alg».proof.Proof.Gen.Kernel.Points
import proofs.«140624_j29308856828594_1_alg».proof.Proof.Gen.Kernel.Frame
import proofs.«140624_j29308856828594_1_alg».proof.Proof.Gen.KernelIdeal
import proofs.«140624_j29308856828594_1_alg».proof.Proof.Gen.KernelIdeal.Skeleton
import proofs.«140624_j29308856828594_1_alg».proof.Proof.Gen.KernelIdeal.Launch
import proofs.«140624_j29308856828594_1_alg».proof.Proof.Gen.KernelIdeal.Points
import proofs.«140624_j29308856828594_1_alg».proof.Proof.Gen.KernelIdeal.Frame
import proofs.«140624_j29308856828594_1_alg».proof.Proof.Gen.ReferenceIdeal
import proofs.«140624_j29308856828594_1_alg».proof.Proof.Gen.Pre_finite_inputs
import proofs.«140624_j29308856828594_1_alg».proof.Proof.Gen.KernelIdeal.Value
import proofs.«140624_j29308856828594_1_alg».proof.Proof.Gen.ReferenceIdeal.Run
import proofs.«140624_j29308856828594_1_alg».proof.Proof.Gen.ReferenceIdeal.Read
import proofs.«140624_j29308856828594_1_alg».proof.Proof.Final
import proofs.«140624_j29308856828594_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were: the generated frame run. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments as they were: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- At the extended reals the kernel's two result arrays end at the specification's output and weights of its
    arguments, and the reference's two results, read at an index, are the same functions of arguments that agree. -/
theorem algebraic : Cert.algebraic_KernelIdeal_ReferenceIdeal := by
  intro m ρ m' ρ' _ hagree
  refine ⟨fun c => Cert.KernelIdeal.AttnRun.outArr m c, fun c => Cert.KernelIdeal.AttnRun.weightsArr m c,
    Cert.KernelIdeal.AttnRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v21_eq, (hagree c).1, (hagree c).2.1, (hagree c).2.2.1, (hagree c).2.2.2.1]
    funext i
    obtain ⟨b, r, h, rfl⟩ : ∃ (b : Fin 8) (r : Fin 2048) (h : Fin 64), i = ix3 b r h := ⟨i 0, i 1, i 2, eq_ix3 i⟩
    exact Cert.RefValue.out_eq _ _ _ _ b r h
  · rw [Cert.ReferenceIdeal.Read.val_main_v20_eq, (hagree c).1, (hagree c).2.1, (hagree c).2.2.1]
    funext i
    obtain ⟨b, r, j, rfl⟩ : ∃ (b : Fin 8) (r : Fin 2048) (j : Fin 2048), i = ix3 b r j := ⟨i 0, i 1, i 2, eq_ix3 i⟩
    exact Cert.RefValue.attn_eq _ _ _ b r j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
